-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S1250000 .f32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S_ : Shape := ⟨0, ![]⟩
abbrev S1x64 : Shape := ⟨2, ![1, 64]⟩
abbrev S1x1250000 : Shape := ⟨2, ![1, 1250000]⟩
abbrev S5000x64 : Shape := ⟨2, ![5000, 64]⟩
abbrev S1250000x1 : Shape := ⟨2, ![1250000, 1]⟩
abbrev S1250000x64 : Shape := ⟨2, ![1250000, 64]⟩

abbrev nBuf : Space → Nat
  | .hbm => 96
  | .vmem => 52
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S1x64, .f32⟩
  | .hbm, ⟨20, _⟩ => ⟨S1x1250000, .i32⟩
  | .hbm, ⟨21, _⟩ => ⟨S1250000, .i32⟩
  | .hbm, ⟨22, _⟩ => ⟨S1x1250000, .i32⟩
  | .hbm, ⟨23, _⟩ => ⟨S1250000, .i32⟩
  | .hbm, ⟨24, _⟩ => ⟨S100000x64, .f32⟩
  | .hbm, ⟨25, _⟩ => ⟨S1250000x1, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .f32⟩
  | .hbm, ⟨35, _⟩ => ⟨S1250000x64, .f32⟩
  | .hbm, ⟨36, _⟩ => ⟨S1250000x64, .f32⟩
  | .hbm, ⟨37, _⟩ => ⟨S_, .f32⟩
  | .hbm, ⟨38, _⟩ => ⟨S100000x64, .f32⟩
  | .hbm, ⟨39, _⟩ => ⟨S1250000x1, .i32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1250000x1, .f32⟩
  | .hbm, ⟨44, _⟩ => ⟨S_, .i32⟩
  | .hbm, ⟨45, _⟩ => ⟨S1250000, .i32⟩
  | .hbm, ⟨46, _⟩ => ⟨S1250000, .i1⟩
  | .hbm, ⟨47, _⟩ => ⟨S_, .i32⟩
  | .hbm, ⟨48, _⟩ => ⟨S1250000, .i32⟩
  | .hbm, ⟨49, _⟩ => ⟨S1250000, .i32⟩
  | .hbm, ⟨50, _⟩ => ⟨S1250000, .i32⟩
  | .hbm, ⟨51, _⟩ => ⟨S1250000x1, .i32⟩
  | .hbm, ⟨52, _⟩ => ⟨S1250000x64, .f32⟩
  | .hbm, ⟨53, _⟩ => ⟨S1250000x64, .f32⟩
  | .hbm, ⟨54, _⟩ => ⟨S1250000x64, .f32⟩
  | .hbm, ⟨55, _⟩ => ⟨S_, .f32⟩
  | .hbm, ⟨56, _⟩ => ⟨S100000x64, .f32⟩
  | .hbm, ⟨57, _⟩ => ⟨S1250000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1250000x1, .f32⟩
  | .hbm, ⟨62, _⟩ => ⟨S_, .i32⟩
  | .hbm, ⟨63, _⟩ => ⟨S1250000, .i32⟩
  | .hbm, ⟨64, _⟩ => ⟨S1250000, .i1⟩
  | .hbm, ⟨65, _⟩ => ⟨S_, .i32⟩
  | .hbm, ⟨66, _⟩ => ⟨S1250000, .i32⟩
  | .hbm, ⟨67, _⟩ => ⟨S1250000, .i32⟩
  | .hbm, ⟨68, _⟩ => ⟨S1250000, .i32⟩
  | .hbm, ⟨69, _⟩ => ⟨S1250000x1, .i32⟩
  | .hbm, ⟨70, _⟩ => ⟨S1250000x64, .f32⟩
  | .hbm, ⟨71, _⟩ => ⟨S1250000x64, .f32⟩
  | .hbm, ⟨72, _⟩ => ⟨S1250000x64, .f32⟩
  | .hbm, ⟨73, _⟩ => ⟨S_, .f32⟩
  | .hbm, ⟨74, _⟩ => ⟨S100000x64, .f32⟩
  | .hbm, ⟨75, _⟩ => ⟨S1250000x1, .i32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1250000x1, .f32⟩
  | .hbm, ⟨80, _⟩ => ⟨S_, .i32⟩
  | .hbm, ⟨81, _⟩ => ⟨S1250000, .i32⟩
  | .hbm, ⟨82, _⟩ => ⟨S1250000, .i1⟩
  | .hbm, ⟨83, _⟩ => ⟨S_, .i32⟩
  | .hbm, ⟨84, _⟩ => ⟨S1250000, .i32⟩
  | .hbm, ⟨85, _⟩ => ⟨S1250000, .i32⟩
  | .hbm, ⟨86, _⟩ => ⟨S1250000, .i32⟩
  | .hbm, ⟨87, _⟩ => ⟨S1250000x1, .i32⟩
  | .hbm, ⟨88, _⟩ => ⟨S1250000x64, .f32⟩
  | .hbm, ⟨89, _⟩ => ⟨S1250000x64, .f32⟩
  | .hbm, ⟨90, _⟩ => ⟨S1250000x64, .f32⟩
  | .hbm, ⟨91, _⟩ => ⟨S_, .f32⟩
  | .hbm, ⟨92, _⟩ => ⟨S100000x64, .f32⟩
  | .hbm, ⟨93, _⟩ => ⟨S1250000x1, .i32⟩
  | .hbm, ⟨94, _⟩ => ⟨S100000x64, .f32⟩
  | .hbm, ⟨95, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S64x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_9 : Ref sig .tc := ⟨.hbm, 80, rfl⟩
abbrev main_v63 : Ref sig .tc := ⟨.hbm, 81, rfl⟩
abbrev main_v64 : Ref sig .tc := ⟨.hbm, 82, rfl⟩
abbrev main_c_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg4_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg4_0 : Ref sig .tc := ⟨.vmem, 50, rfl⟩
abbrev cc7_stg4_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem4_0 : DmaSem sig := 37
abbrev cc5_sem4_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem3_0 : DmaSem sig := 49
abbrev cc7_sem4_0 : DmaSem sig := 50
abbrev cc7_sem4_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  transposes_S64x64_S64x64_1_0 : S64x64.Transposes [1, 0] S64x64
  bcast_S_S64x64 : S_.BroadcastsInDim S64x64 (![] : Fin 0 → Fin S64x64.rank)
  shapeCasts_S64_S1x64 : S64.ShapeCasts S1x64
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S64x64_S64x64 : S64x64.ShapeCasts S64x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v45) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v10) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v11) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v60) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v60) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v60) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v10) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v11) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v75) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S_ : Shape := ⟨0, ![]⟩
abbrev S1x1250000 : Shape := ⟨2, ![1, 1250000]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S100000x64, .f32⟩
  | 1 => ⟨S2x1250000, .i32⟩
  | 2 => ⟨S1250000, .f32⟩
  | 3 => ⟨S64x64, .f32⟩
  | 4 => ⟨S64x64, .f32⟩
  | 5 => ⟨S64, .f32⟩
  | 6 => ⟨S64x64, .f32⟩
  | 7 => ⟨S64x64, .f32⟩
  | 8 => ⟨S64x64, .i32⟩
  | 9 => ⟨S64x64, .i32⟩
  | 10 => ⟨S_, .i32⟩
  | 11 => ⟨S64x64, .i32⟩
  | 12 => ⟨S64x64, .i32⟩
  | 13 => ⟨S64x64, .i1⟩
  | 14 => ⟨S64x64, .f32⟩
  | 15 => ⟨S_, .f32⟩
  | 16 => ⟨S64x64, .f32⟩
  | 17 => ⟨S64x64, .f32⟩
  | 18 => ⟨S64x64, .f32⟩
  | 19 => ⟨S1x1250000, .i32⟩
  | 20 => ⟨S1250000, .i32⟩
  | 21 => ⟨S1x1250000, .i32⟩
  | 22 => ⟨S1250000, .i32⟩
  | 23 => ⟨S64x64, .f32⟩
  | 24 => ⟨S100000x64, .f32⟩
  | 25 => ⟨S1250000x1, .f32⟩
  | 26 => ⟨S_, .i32⟩
  | 27 => ⟨S1250000, .i32⟩
  | 28 => ⟨S1250000, .i1⟩
  | 29 => ⟨S_, .i32⟩
  | 30 => ⟨S1250000, .i32⟩
  | 31 => ⟨S1250000, .i32⟩
  | 32 => ⟨S1250000, .i32⟩
  | 33 => ⟨S1250000x1, .i32⟩
  | 34 => ⟨S1250000x64, .f32⟩
  | 35 => ⟨S1250000x64, .f32⟩
  | 36 => ⟨S1250000x64, .f32⟩
  | 37 => ⟨S_, .f32⟩
  | 38 => ⟨S100000x64, .f32⟩
  | 39 => ⟨S1250000x1, .i32⟩
  | 40 => ⟨S100000x64, .f32⟩
  | 41 => ⟨S64x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S64x64, .f32⟩
  | 53 => ⟨S100000x64, .f32⟩
  | 54 => ⟨S1250000x1, .f32⟩
  | 55 => ⟨S_, .i32⟩
  | 56 => ⟨S1250000, .i32⟩
  | 57 => ⟨S1250000, .i1⟩
  | 58 => ⟨S_, .i32⟩
  | 59 => ⟨S1250000, .i32⟩
  | 60 => ⟨S1250000, .i32⟩
  | 61 => ⟨S1250000, .i32⟩
  | 62 => ⟨S1250000x1, .i32⟩
  | 63 => ⟨S1250000x64, .f32⟩
  | 64 => ⟨S1250000x64, .f32⟩
  | 65 => ⟨S1250000x64, .f32⟩
  | 66 => ⟨S_, .f32⟩
  | 67 => ⟨S100000x64, .f32⟩
  | 68 => ⟨S1250000x1, .i32⟩
  | 69 => ⟨S100000x64, .f32⟩
  | 70 => ⟨S64x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S64x64, .f32⟩
  | 82 => ⟨S100000x64, .f32⟩
  | 83 => ⟨S1250000x1, .f32⟩
  | 84 => ⟨S_, .i32⟩
  | 85 => ⟨S1250000, .i32⟩
  | 86 => ⟨S1250000, .i1⟩
  | 87 => ⟨S_, .i32⟩
  | 88 => ⟨S1250000, .i32⟩
  | 89 => ⟨S1250000, .i32⟩
  | 90 => ⟨S1250000, .i32⟩
  | 91 => ⟨S1250000x1, .i32⟩
  | 92 => ⟨S1250000x64, .f32⟩
  | 93 => ⟨S1250000x64, .f32⟩
  | 94 => ⟨S1250000x64, .f32⟩
  | 95 => ⟨S_, .f32⟩
  | 96 => ⟨S100000x64, .f32⟩
  | 97 => ⟨S1250000x1, .i32⟩
  | 98 => ⟨S100000x64, .f32⟩
  | 99 => ⟨S64x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S64x64, .f32⟩
  | 111 => ⟨S100000x64, .f32⟩
  | 112 => ⟨S1250000x1, .f32⟩
  | 113 => ⟨S_, .i32⟩
  | 114 => ⟨S1250000, .i32⟩
  | 115 => ⟨S1250000, .i1⟩
  | 116 => ⟨S_, .i32⟩
  | 117 => ⟨S1250000, .i32⟩
  | 118 => ⟨S1250000, .i32⟩
  | 119 => ⟨S1250000, .i32⟩
  | 120 => ⟨S1250000x1, .i32⟩
  | 121 => ⟨S1250000x64, .f32⟩
  | 122 => ⟨S1250000x64, .f32⟩
  | 123 => ⟨S1250000x64, .f32⟩
  | 124 => ⟨S_, .f32⟩
  | 125 => ⟨S100000x64, .f32⟩
  | 126 => ⟨S1250000x1, .i32⟩
  | 127 => ⟨S100000x64, .f32⟩
  | _ => ⟨S100000x64, .f32⟩

abbrev hbmTy0_1 (i : Nat) : BufTy := match i % 128 with
  | 0 => ⟨S64x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_8 : Ref sig .tc := ⟨.hbm, 84, rfl⟩
abbrev main_v68 : Ref sig .tc := ⟨.hbm, 85, rfl⟩
abbrev main_v69 : Ref sig .tc := ⟨.hbm, 86, rfl⟩
abbrev main_c_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_10 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_11 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_c_12 : Ref sig .tc := ⟨.hbm, 113, rfl⟩
abbrev main_v93 : Ref sig .tc := ⟨.hbm, 114, rfl⟩
abbrev main_v94 : Ref sig .tc := ⟨.hbm, 115, rfl⟩
abbrev main_c_13 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_14 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_15 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩

abbrev nD : Nat := 1
abbrev τ : Topo := Topo.v7x

variable {F : FTy → Type} [FloatOps F]

class Facts₀ : Prop where
  transposes_S64x64_S64x64_1_0 : S64x64.Transposes [1, 0] S64x64
  bcast_S_S64x64 : S_.BroadcastsInDim S64x64 (![] : Fin 0 → Fin S64x64.rank)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.RunValue.lean ====
/-
  The kernel program's run, with the result array named.

  The program is 8 regions among 5 stretches of host operations. Its frame certificate follows the buffers' contents
  through these 13 segments (a fold from the launch memory) and concludes that the arguments end unchanged. The same run
  also says where every other buffer ends: at the fold's last valuation. Read at the result buffer, that is the value
  the two programs are compared at.
-/
import proofs.«108213_j26422638805509_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    valuation of the fold through the 13 segments and every argument array as launched. -/
theorem run : θ_run defs (onTc (τ := τ) (main (F := F))) ⟨m, fun _ => 0, ρ⟩ (fun r => ∀ c : Dev nD,
      r.2.mem ((c.tc : Thread nD τ).loc main_v75) = W13 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v75 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.RunValue

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.NodeStep.lean ====
/-
  One step of the node update, entry by entry, on the extended reals.

  The state is an array x of n rows of 64 entries. With a 64×64 matrix w, (x · wᵀ)(r, j) is the sum over k < 64 of
  x(r, k) · w(j, k): the row r of x against the row j of w (`rowsDot`). The update of a row uses no other row of x:
    x'(r, j) = x(r, j) + ε · tanh ((x · aᵀ)(r, j) + g(r, j) + b(j))
  where g is the aggregated message array, b a one-row matrix and ε the f32 word 0x3DCCCCCD (`updRows`).

  Both programs compute these two functions. The kernel does it on blocks of 5000 rows with `tpu.matmul` into a zero
  accumulator after narrowing both operands to bf16 (no change of value on the extended reals) and transposing the
  matrix in registers; the reference on whole arrays with `dot_general` against the transposed matrix. Because a row
  of the result depends on that row of x only, a block of the result is the same function of the block of x.
-/
import proofs.«108213_j26422638805509_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.NodeStep

open Idealize.ShloMosaic Idealize.ShloMosaic.ValueIdx

/-- n rows of 64 entries. -/
abbrev Nodes (n : Nat) : Shape := ⟨2, ![n, 64]⟩
/-- A 64×64 matrix. -/
abbrev Sq : Shape := ⟨2, ![64, 64]⟩
/-- A one-row matrix of 64 entries. -/
abbrev Row : Shape := ⟨2, ![1, 64]⟩
/-- No axes: a scalar. -/
abbrev Sc : Shape := ⟨0, ![]⟩

/-- The step size ε, the value of the f32 word 0x3DCCCCCD. -/
def eps : EReal := Ideal.ofBits .f32 0x3DCCCCCD#32

/-- (x · wᵀ)(r, j) = Σ_k x(r, k) · w(j, k). -/
def rowsDot {n : Nat} (x : FVec Ideal (Nodes n) .f32) (w : FVec Ideal Sq .f32) : FVec Ideal (Nodes n) .f32 :=
  fun i => ∑ k : Fin 64, x (ix2 (i 0) k) * w (ix2 (i 1) k)

/-- x'(r, j) = x(r, j) + ε · tanh ((x · aᵀ)(r, j) + g(r, j) + b(0, j)). -/
def updRows {n : Nat} (x g : FVec Ideal (Nodes n) .f32) (a : FVec Ideal Sq .f32) (b : FVec Ideal Row .f32) :
    FVec Ideal (Nodes n) .f32 :=
  fun i => x i + eps * Ideal.tanh (rowsDot x a i + g i + b (ix2 0 (i 1)))

/-- A step applied four times. -/
def fourSteps {α : Type} (f : α → α) (x : α) : α := f (f (f (f x)))

/-- Row j of a block against the matrix is row i of the array against the matrix, when the two rows and the two rows of
    the matrices agree entry by entry. -/
theorem rowsDot_congr {n n' : Nat} (xb : FVec Ideal (Nodes n) .f32) (wb : FVec Ideal Sq .f32)
    (x : FVec Ideal (Nodes n') .f32) (w : FVec Ideal Sq .f32) (j : (Nodes n).Idx) (i : (Nodes n').Idx)
    (hx : ∀ k : Fin 64, xb (ix2 (j 0) k) = x (ix2 (i 0) k)) (hw : ∀ k : Fin 64, wb (ix2 (j 1) k) = w (ix2 (i 1) k)) :
    rowsDot xb wb j = rowsDot x w i :=
  Finset.sum_congr rfl fun k _ => by rw [hx k, hw k]

/-- The update of a block's entry is the update of the array's entry, when everything it reads agrees. -/
theorem updRows_congr {n n' : Nat} (xb gb : FVec Ideal (Nodes n) .f32) (ab : FVec Ideal Sq .f32) (bb : FVec Ideal Row .f32)
    (x g : FVec Ideal (Nodes n') .f32) (a : FVec Ideal Sq .f32) (b : FVec Ideal Row .f32) (j : (Nodes n).Idx) (i : (Nodes n').Idx)
    (hx : xb j = x i) (hg : gb j = g i) (hrd : rowsDot xb ab j = rowsDot x a i) (hb : bb (ix2 0 (j 1)) = b (ix2 0 (i 1))) :
    updRows xb gb ab bb j = updRows x g a b i := by
  unfold updRows
  rw [hx, hg, hrd, hb]

/-- The transposed matrix at (k, j) is the matrix at (j, k). -/
theorem transposed_apply {α : Type} (w : Sq.Idx → α) (ht : Sq.Transposes [1, 0] Sq) (k j : Fin 64) :
    transpose Sq [1, 0] w ht (ix2 k j) = w (ix2 j k) :=
  transpose_ix2_apply (a := 64) (b := 64) w ht k j

/-- The kernel's product of a block with the transposed matrix, both narrowed to bf16, into a zero accumulator. -/
theorem matmul_rows {n : Nat} (x : FVec Ideal (Nodes n) .f32) (w : FVec Ideal Sq .f32)
    (h1 : FTy.bf16.bits < FTy.f32.bits) (ht : Sq.Transposes [1, 0] Sq) (j : (Nodes n).Idx) :
    matmul (F := Ideal) (DotDims.plain n 64 64) none (truncf .bf16 x h1) (transpose Sq [1, 0] (truncf .bf16 w h1) ht)
        (constant (Nodes n) .f32 0x00000000#32) j
      = rowsDot x w j := by
  rw [Cert.LibPlainDot.matmul_plain]
  refine Finset.sum_congr rfl fun k _ => ?_
  exact congrArg (fun t => x (ix2 (j 0) k) * t) (transposed_apply w ht k (j 1))

/-- The reference's product of the whole array with the transposed matrix. -/
theorem dotGeneral_rows {n : Nat} (x : FVec Ideal (Nodes n) .f32) (w : FVec Ideal Sq .f32)
    (ht : Sq.Transposes [1, 0] Sq) (j : (Nodes n).Idx) :
    Host.dotGeneral (F := Ideal) (DotDims.plain n 64 64) none x (transpose Sq [1, 0] w ht) j = rowsDot x w j := by
  rw [Cert.LibPlainDot.dotGeneral_plain]
  refine Finset.sum_congr rfl fun k _ => ?_
  exact congrArg (fun t => x (ix2 (j 0) k) * t) (transposed_apply w ht k (j 1))

/-- The same, as an equation of arrays. -/
theorem dotGeneral_rows_eq {n : Nat} (x : FVec Ideal (Nodes n) .f32) (w : FVec Ideal Sq .f32)
    (ht : Sq.Transposes [1, 0] Sq) :
    Host.dotGeneral (F := Ideal) (DotDims.plain n 64 64) none x (transpose Sq [1, 0] w ht) = rowsDot x w :=
  funext fun j => dotGeneral_rows x w ht j

/-- A scalar constant broadcast to every entry. -/
theorem splat_apply {n : Nat} (h : Sc.BroadcastsInDim (Nodes n) ![]) (bits : BitVec 32) (i : (Nodes n).Idx) :
    broadcastInDim (Nodes n) ![] h (constant (F := Ideal) Sc .f32 bits) i = Ideal.ofBits .f32 bits :=
  broadcastInDim_apply (![] : Fin 0 → Fin 2) h (constant (F := Ideal) Sc .f32 bits) i (fun a => a.elim0) fun a => a.elim0

/-- The one-row matrix broadcast down the rows. -/
theorem rowBroadcast_apply {n : Nat} (h : Row.BroadcastsInDim (Nodes n) ![0, 1]) (b : FVec Ideal Row .f32) (i : (Nodes n).Idx) :
    broadcastInDim (Nodes n) ![0, 1] h b i = b (ix2 0 (i 1)) :=
  broadcastInDim_apply (![0, 1] : Fin 2 → Fin 2) h b i (ix2 0 (i 1)) fun a => by
    match a with
    | ⟨0, _⟩ => rfl
    | ⟨1, _⟩ => rfl

/-- The reference's update of the whole array, operation by operation, is `updRows`. -/
theorem host_update {n : Nat} (x g : FVec Ideal (Nodes n) .f32) (a : FVec Ideal Sq .f32) (b : FVec Ideal Row .f32)
    (ht : Sq.Transposes [1, 0] Sq) (h0 : Sc.BroadcastsInDim (Nodes n) ![]) (h1 : Row.BroadcastsInDim (Nodes n) ![0, 1]) :
    addf x (mulf (broadcastInDim (Nodes n) ![] h0 (constant (F := Ideal) Sc .f32 0x3DCCCCCD#32))
        (Host.tanh (addf (addf (Host.dotGeneral (F := Ideal) (DotDims.plain n 64 64) none x (transpose Sq [1, 0] a ht)) g)
          (broadcastInDim (Nodes n) ![0, 1] h1 b))))
      = updRows x g a b := by
  funext i
  rw [addf_apply, mulf_apply, splat_apply]
  show x i + eps * Ideal.tanh (addf (addf (Host.dotGeneral (F := Ideal) (DotDims.plain n 64 64) none x (transpose Sq [1, 0] a ht)) g)
          (broadcastInDim (Nodes n) ![0, 1] h1 b) i) = _
  rw [addf_apply, addf_apply, dotGeneral_rows, rowBroadcast_apply]
  rfl

end Cert.NodeStep

end
-- ==== Proof.Reg0.lean ====
/-
  Region 0 of the kernel program: a row-blocked product x · wᵀ.

  The grid has 20 points; point t stages rows 5000·t … 5000·t + 4999 of the state array and the whole 64×64 matrix,
  and writes back the same rows of the output array. A row of x · wᵀ depends on that row of x only, so what point t
  writes back is block t of the whole array's x · wᵀ; the 20 blocks cover the 100000 rows, so the output array ends as
  x · wᵀ of the arrays the region found.
-/
import proofs.«108213_j26422638805509_1_alg».proof.Proof.Gen.KernelIdeal.Frame
import proofs.«108213_j26422638805509_1_alg».proof.Proof.NodeStep

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)
open Cert.NodeStep

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry of the block: the block's row against the matrix's row. -/
theorem stored_apply (xb : Vec Ideal S5000x64 .f32) (w : Vec Ideal S64x64 .f32) (j : S5000x64.Idx) :
    k0_pay1 xb w j = rowsDot (n := 5000) xb w j := by
  unfold k0_pay1
  simp only [shapeCast_self]
  exact matmul_rows (n := 5000) xb w _ _ j

/-- The index maps over the grid: the state's and the output's block move together down the rows, the matrix stays. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 20 row blocks is some point's. -/
theorem block_of_point : ∀ q : Fin 20, ∃ t : Fin cfg0.N, win0_2.index t = ![q.val, 0] :=
  (by decide +kernel : ∀ q : Fin 20, ∃ t : Fin grid0.N, win0_2.index t = ![q.val, 0])

/-- What point t writes back is block t of x · wᵀ of the arrays the region found. -/
theorem written_back (c : Dev nD) (t : Fin cfg0.N) :
    (dat0 V c).flushed 2 t
      = ((cfg0.win 2).blk t).view.read (Elt Ideal) (rowsDot (n := 100000) (V c main_arg0) (V c main_arg4)) := by
  show (cfg0.win 2).cut (grid0.coords t) ((dat0 V c).after 2 t) = _
  rw [after0_2]
  unfold out0_2
  rw [View.canon_unit_zero origin]
  simp only [View.ld_unit_zero (S := S5000x64) origin, View.ld_unit_zero (S := S64x64) origin]
  obtain ⟨e0, e1, e2, e3, e4⟩ := index_maps t
  funext j
  show k0_pay1 (iblk0 V c 0 t) (iblk0 V c 1 t) j
      = rowsDot (n := 100000) (V c main_arg0) (V c main_arg4) (((cfg0.win 2).blk t).view.emb j)
  refine (stored_apply (iblk0 V c 0 t) (iblk0 V c 1 t) j).trans ?_
  refine rowsDot_congr (iblk0 V c 0 t) (iblk0 V c 1 t) (V c main_arg0) (V c main_arg4) j (((cfg0.win 2).blk t).view.emb j)
    (fun k => ?_) (fun k => ?_)
  · have hx : ((cfg0.win 0).blk t).view.emb (ix2 (j 0) k) = ix2 ((((cfg0.win 2).blk t).view.emb j) 0) k := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 64 + 1 * k.val = k.val; omega
    exact congrArg (V c main_arg0) hx
  · have hw : ((cfg0.win 1).blk t).view.emb (ix2 (j 1) k) = ix2 ((((cfg0.win 2).blk t).view.emb j) 1) k := by
      funext a; apply Fin.ext
      match a with
      | ⟨0, _⟩ => show win0_1.index t (0 : Fin 2) * 64 + 1 * (j 1).val = win0_2.index t (1 : Fin 2) * 64 + 1 * (j 1).val; omega
      | ⟨1, _⟩ => show win0_1.index t (1 : Fin 2) * 64 + 1 * k.val = k.val; omega
    exact congrArg (V c main_arg4) hw

/-- An entry of the output array lies in point t's block iff its row and column lie in the block's ranges. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v16).slice (win0_2.rect t)).set ↔ _
  rw [View.set_slice_whole, Rect.mem_set_unit]
  exact Iff.rfl

/-- Row r is in the block of point r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_of_point ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: x · wᵀ of the arrays the region found. -/
theorem result (c : Dev nD) :
    (dat0 V c).arrAt 2 cfg0.N = rowsDot (n := 100000) (V c main_arg0) (V c main_arg4) :=
  (dat0 V c).arrAt_eq_of_cover 2 _ (fun t _ => written_back V c t) covered

end Cert.KernelIdeal.Reg0

end
-- ==== Proof.Reg1.lean ====
/-
  Region 1 of the kernel program: the row-blocked update x' = x + ε · tanh (x · aᵀ + g + b).

  The grid has 20 points; point t stages rows 5000·t … 5000·t + 4999 of the state array x and of the aggregated
  messages g, the whole 64×64 matrix a and the one-row matrix b, and writes back the same rows of the output array.
  Row r of the update reads row r of x and of g only, so what point t writes back is block t of the whole arrays'
  update; the 20 blocks cover the 100000 rows, so the output array ends as the update of the arrays the region found.
-/
import proofs.«108213_j26422638805509_1_alg».proof.Proof.Gen.KernelIdeal.Frame
import proofs.«108213_j26422638805509_1_alg».proof.Proof.NodeStep

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)
open Cert.NodeStep

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry of the block: the update of the block's row. -/
theorem stored_apply (xb : Vec Ideal S5000x64 .f32) (a : Vec Ideal S64x64 .f32) (gb : Vec Ideal S5000x64 .f32)
    (b : Vec Ideal S1x64 .f32) (j : S5000x64.Idx) :
    k1_pay1 xb a gb b j = updRows (n := 5000) xb gb a b j := by
  unfold k1_pay1
  simp only [shapeCast_self]
  have hm := matmul_rows (n := 5000) xb a bitsLt_bf16_f32 transposes_S64x64_p1_0_S64x64 j
  have hb : broadcastTo S5000x64 b broadcasts_S1x64_S5000x64 j = b (ix2 0 (j 1)) :=
    broadcastTo_apply b broadcasts_S1x64_S5000x64 j (ix2 0 (j 1)) fun a => by
      match a with
      | ⟨0, _⟩ => rfl
      | ⟨1, _⟩ => rfl
  exact congrArg (fun z => xb j + eps * Ideal.tanh z) (congr (congrArg HAdd.hAdd (congrArg (fun y => y + gb j) hm)) hb)

/-- The index maps over the grid: the state's, the messages' and the output's block move together down the rows, the
    matrix and the one-row matrix stay. -/
theorem index_maps : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0 :=
  (by decide +kernel : ∀ t : Fin grid1.N, _)

/-- Every one of the 20 row blocks is some point's. -/
theorem block_of_point : ∀ q : Fin 20, ∃ t : Fin cfg1.N, win1_4.index t = ![q.val, 0] :=
  (by decide +kernel : ∀ q : Fin 20, ∃ t : Fin grid1.N, win1_4.index t = ![q.val, 0])

set_option maxHeartbeats 1600000 in
/-- What point t writes back is block t of the update of the arrays the region found. -/
theorem written_back (c : Dev nD) (t : Fin cfg1.N) :
    (dat1 V c).flushed 4 t
      = ((cfg1.win 4).blk t).view.read (Elt Ideal)
          (updRows (n := 100000) (V c main_arg0) (V c main_v29) (V c main_v10) (V c main_v11)) := by
  show (cfg1.win 4).cut (grid1.coords t) ((dat1 V c).after 4 t) = _
  rw [after1_4]
  unfold out1_4
  rw [View.canon_unit_zero origin]
  simp only [View.ld_unit_zero (S := S5000x64) origin, View.ld_unit_zero (S := S64x64) origin, View.ld_unit_zero (S := S1x64) origin]
  obtain ⟨e0, e1, e2, e3, e4, e5, e6, e7, e8⟩ := index_maps t
  funext j
  show k1_pay1 (iblk1 V c 0 t) (iblk1 V c 2 t) (iblk1 V c 1 t) (iblk1 V c 3 t) j
      = updRows (n := 100000) (V c main_arg0) (V c main_v29) (V c main_v10) (V c main_v11) (((cfg1.win 4).blk t).view.emb j)
  refine (stored_apply (iblk1 V c 0 t) (iblk1 V c 2 t) (iblk1 V c 1 t) (iblk1 V c 3 t) j).trans ?_
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  have h3 : ((cfg1.win 3).blk t).view.emb (ix2 0 (j 1)) = ix2 0 ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  refine updRows_congr (iblk1 V c 0 t) (iblk1 V c 1 t) (iblk1 V c 2 t) (iblk1 V c 3 t)
    (V c main_arg0) (V c main_v29) (V c main_v10) (V c main_v11) j (((cfg1.win 4).blk t).view.emb j) ?_ ?_ ?_ ?_
  · exact congrArg (V c main_arg0) h0
  · exact congrArg (V c main_v29) h1
  · refine rowsDot_congr (iblk1 V c 0 t) (iblk1 V c 2 t) (V c main_arg0) (V c main_v10) j (((cfg1.win 4).blk t).view.emb j)
      (fun k => ?_) (fun k => ?_)
    · have hx : ((cfg1.win 0).blk t).view.emb (ix2 (j 0) k) = ix2 ((((cfg1.win 4).blk t).view.emb j) 0) k := by
        funext a; apply Fin.ext
        match a with
        | ⟨0, _⟩ => show win1_0.index t (0 : Fin 2) * 5000 + 1 * (j 0).val = win1_4.index t (0 : Fin 2) * 5000 + 1 * (j 0).val; omega
        | ⟨1, _⟩ => show win1_0.index t (1 : Fin 2) * 64 + 1 * k.val = k.val; omega
      exact congrArg (V c main_arg0) hx
    · have hw : ((cfg1.win 2).blk t).view.emb (ix2 (j 1) k) = ix2 ((((cfg1.win 4).blk t).view.emb j) 1) k := by
        funext a; apply Fin.ext
        match a with
        | ⟨0, _⟩ => show win1_2.index t (0 : Fin 2) * 64 + 1 * (j 1).val = win1_4.index t (1 : Fin 2) * 64 + 1 * (j 1).val; omega
        | ⟨1, _⟩ => show win1_2.index t (1 : Fin 2) * 64 + 1 * k.val = k.val; omega
      exact congrArg (V c main_v10) hw
  · exact congrArg (V c main_v11) h3

/-- An entry of the output array lies in point t's block iff its row and column lie in the block's ranges. -/
theorem mem_block (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v30).slice (win1_4.rect t)).set ↔ _
  rw [View.set_slice_whole, Rect.mem_set_unit]
  exact Iff.rfl

/-- Row r is in the block of point r / 5000. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := block_of_point ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array after the region: the update of the arrays the region found. -/
theorem result (c : Dev nD) :
    (dat1 V c).arrAt 4 cfg1.N = updRows (n := 100000) (V c main_arg0) (V c main_v29) (V c main_v10) (V c main_v11) :=
  (dat1 V c).arrAt_eq_of_cover 4 _ (fun t _ => written_back V c t) covered

end Cert.KernelIdeal.Reg1

end
-- ==== Proof.Reg2.lean ====
/-
  Region 2 of the kernel program: a row-blocked product x · wᵀ.

  The grid has 20 points; point t stages rows 5000·t … 5000·t + 4999 of the state array and the whole 64×64 matrix,
  and writes back the same rows of the output array. A row of x · wᵀ depends on that row of x only, so what point t
  writes back is block t of the whole array's x · wᵀ; the 20 blocks cover the 100000 rows, so the output array ends as
  x · wᵀ of the arrays the region found.
-/
import proofs.«108213_j26422638805509_1_alg».proof.Proof.Gen.KernelIdeal.Frame
import proofs.«108213_j26422638805509_1_alg».proof.Proof.NodeStep

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)
open Cert.NodeStep

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry of the block: the block's row against the matrix's row. -/
theorem stored_apply (xb : Vec Ideal S5000x64 .f32) (w : Vec Ideal S64x64 .f32) (j : S5000x64.Idx) :
    k2_pay1 xb w j = rowsDot (n := 5000) xb w j := by
  unfold k2_pay1
  simp only [shapeCast_self]
  exact matmul_rows (n := 5000) xb w _ _ j

/-- The index maps over the grid: the state's and the output's block move together down the rows, the matrix stays. -/
theorem index_maps : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the 20 row blocks is some point's. -/
theorem block_of_point : ∀ q : Fin 20, ∃ t : Fin cfg2.N, win2_2.index t = ![q.val, 0] :=
  (by decide +kernel : ∀ q : Fin 20, ∃ t : Fin grid2.N, win2_2.index t = ![q.val, 0])

/-- What point t writes back is block t of x · wᵀ of the arrays the region found. -/
theorem written_back (c : Dev nD) (t : Fin cfg2.N) :
    (dat2 V c).flushed 2 t
      = ((cfg2.win 2).blk t).view.read (Elt Ideal) (rowsDot (n := 100000) (V c main_v30) (V c main_arg4)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x64) origin]
  obtain ⟨e0, e1, e2, e3, e4⟩ := index_maps t
  funext j
  show k2_pay1 (iblk2 V c 0 t) (iblk2 V c 1 t) j
      = rowsDot (n := 100000) (V c main_v30) (V c main_arg4) (((cfg2.win 2).blk t).view.emb j)
  refine (stored_apply (iblk2 V c 0 t) (iblk2 V c 1 t) j).trans ?_
  refine rowsDot_congr (iblk2 V c 0 t) (iblk2 V c 1 t) (V c main_v30) (V c main_arg4) j (((cfg2.win 2).blk t).view.emb j)
    (fun k => ?_) (fun k => ?_)
  · have hx : ((cfg2.win 0).blk t).view.emb (ix2 (j 0) k) = ix2 ((((cfg2.win 2).blk t).view.emb j) 0) k := by
      funext a; apply Fin.ext
      match a with
      | ⟨0, _⟩ => show win2_0.index t (0 : Fin 2) * 5000 + 1 * (j 0).val = win2_2.index t (0 : Fin 2) * 5000 + 1 * (j 0).val; omega
      | ⟨1, _⟩ => show win2_0.index t (1 : Fin 2) * 64 + 1 * k.val = k.val; omega
    exact congrArg (V c main_v30) hx
  · have hw : ((cfg2.win 1).blk t).view.emb (ix2 (j 1) k) = ix2 ((((cfg2.win 2).blk t).view.emb j) 1) k := by
      funext a; apply Fin.ext
      match a with
      | ⟨0, _⟩ => show win2_1.index t (0 : Fin 2) * 64 + 1 * (j 1).val = win2_2.index t (1 : Fin 2) * 64 + 1 * (j 1).val; omega
      | ⟨1, _⟩ => show win2_1.index t (1 : Fin 2) * 64 + 1 * k.val = k.val; omega
    exact congrArg (V c main_arg4) hw

/-- An entry of the output array lies in point t's block iff its row and column lie in the block's ranges. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v31).slice (win2_2.rect t)).set ↔ _
  rw [View.set_slice_whole, Rect.mem_set_unit]
  exact Iff.rfl

/-- Row r is in the block of point r / 5000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := block_of_point ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region: x · wᵀ of the arrays the region found. -/
theorem result (c : Dev nD) :
    (dat2 V c).arrAt 2 cfg2.N = rowsDot (n := 100000) (V c main_v30) (V c main_arg4) :=
  (dat2 V c).arrAt_eq_of_cover 2 _ (fun t _ => written_back V c t) covered

end Cert.KernelIdeal.Reg2

end
-- ==== Proof.Reg3.lean ====
/-
  Region 3 of the kernel program: the row-blocked update x' = x + ε · tanh (x · aᵀ + g + b).

  The grid has 20 points; point t stages rows 5000·t … 5000·t + 4999 of the state array x and of the aggregated
  messages g, the whole 64×64 matrix a and the one-row matrix b, and writes back the same rows of the output array.
  Row r of the update reads row r of x and of g only, so what point t writes back is block t of the whole arrays'
  update; the 20 blocks cover the 100000 rows, so the output array ends as the update of the arrays the region found.
-/
import proofs.«108213_j26422638805509_1_alg».proof.Proof.Gen.KernelIdeal.Frame
import proofs.«108213_j26422638805509_1_alg».proof.Proof.NodeStep

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)
open Cert.NodeStep

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry of the block: the update of the block's row. -/
theorem stored_apply (xb : Vec Ideal S5000x64 .f32) (a : Vec Ideal S64x64 .f32) (gb : Vec Ideal S5000x64 .f32)
    (b : Vec Ideal S1x64 .f32) (j : S5000x64.Idx) :
    k3_pay1 xb a gb b j = updRows (n := 5000) xb gb a b j := by
  unfold k3_pay1
  simp only [shapeCast_self]
  have hm := matmul_rows (n := 5000) xb a bitsLt_bf16_f32 transposes_S64x64_p1_0_S64x64 j
  have hb : broadcastTo S5000x64 b broadcasts_S1x64_S5000x64 j = b (ix2 0 (j 1)) :=
    broadcastTo_apply b broadcasts_S1x64_S5000x64 j (ix2 0 (j 1)) fun a => by
      match a with
      | ⟨0, _⟩ => rfl
      | ⟨1, _⟩ => rfl
  exact congrArg (fun z => xb j + eps * Ideal.tanh z) (congr (congrArg HAdd.hAdd (congrArg (fun y => y + gb j) hm)) hb)

/-- The index maps over the grid: the state's, the messages' and the output's block move together down the rows, the
    matrix and the one-row matrix stay. -/
theorem index_maps : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (1 : Fin 2) = 0 :=
  (by decide +kernel : ∀ t : Fin grid3.N, _)

/-- Every one of the 20 row blocks is some point's. -/
theorem block_of_point : ∀ q : Fin 20, ∃ t : Fin cfg3.N, win3_4.index t = ![q.val, 0] :=
  (by decide +kernel : ∀ q : Fin 20, ∃ t : Fin grid3.N, win3_4.index t = ![q.val, 0])

set_option maxHeartbeats 1600000 in
/-- What point t writes back is block t of the update of the arrays the region found. -/
theorem written_back (c : Dev nD) (t : Fin cfg3.N) :
    (dat3 V c).flushed 4 t
      = ((cfg3.win 4).blk t).view.read (Elt Ideal)
          (updRows (n := 100000) (V c main_v30) (V c main_v44) (V c main_v10) (V c main_v11)) := by
  show (cfg3.win 4).cut (grid3.coords t) ((dat3 V c).after 4 t) = _
  rw [after3_4]
  unfold out3_4
  rw [View.canon_unit_zero origin]
  simp only [View.ld_unit_zero (S := S5000x64) origin, View.ld_unit_zero (S := S64x64) origin, View.ld_unit_zero (S := S1x64) origin]
  obtain ⟨e0, e1, e2, e3, e4, e5, e6, e7, e8⟩ := index_maps t
  funext j
  show k3_pay1 (iblk3 V c 0 t) (iblk3 V c 2 t) (iblk3 V c 1 t) (iblk3 V c 3 t) j
      = updRows (n := 100000) (V c main_v30) (V c main_v44) (V c main_v10) (V c main_v11) (((cfg3.win 4).blk t).view.emb j)
  refine (stored_apply (iblk3 V c 0 t) (iblk3 V c 2 t) (iblk3 V c 1 t) (iblk3 V c 3 t) j).trans ?_
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * (j 1).val = win3_4.index t (1 : Fin 2) * 64 + 1 * (j 1).val; omega
  have h3 : ((cfg3.win 3).blk t).view.emb (ix2 0 (j 1)) = ix2 0 ((((cfg3.win 4).blk t).view.emb j) 1) := by
    funext a; apply Fin.ext
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  refine updRows_congr (iblk3 V c 0 t) (iblk3 V c 1 t) (iblk3 V c 2 t) (iblk3 V c 3 t)
    (V c main_v30) (V c main_v44) (V c main_v10) (V c main_v11) j (((cfg3.win 4).blk t).view.emb j) ?_ ?_ ?_ ?_
  · exact congrArg (V c main_v30) h0
  · exact congrArg (V c main_v44) h1
  · refine rowsDot_congr (iblk3 V c 0 t) (iblk3 V c 2 t) (V c main_v30) (V c main_v10) j (((cfg3.win 4).blk t).view.emb j)
      (fun k => ?_) (fun k => ?_)
    · have hx : ((cfg3.win 0).blk t).view.emb (ix2 (j 0) k) = ix2 ((((cfg3.win 4).blk t).view.emb j) 0) k := by
        funext a; apply Fin.ext
        match a with
        | ⟨0, _⟩ => show win3_0.index t (0 : Fin 2) * 5000 + 1 * (j 0).val = win3_4.index t (0 : Fin 2) * 5000 + 1 * (j 0).val; omega
        | ⟨1, _⟩ => show win3_0.index t (1 : Fin 2) * 64 + 1 * k.val = k.val; omega
      exact congrArg (V c main_v30) hx
    · have hw : ((cfg3.win 2).blk t).view.emb (ix2 (j 1) k) = ix2 ((((cfg3.win 4).blk t).view.emb j) 1) k := by
        funext a; apply Fin.ext
        match a with
        | ⟨0, _⟩ => show win3_2.index t (0 : Fin 2) * 64 + 1 * (j 1).val = win3_4.index t (1 : Fin 2) * 64 + 1 * (j 1).val; omega
        | ⟨1, _⟩ => show win3_2.index t (1 : Fin 2) * 64 + 1 * k.val = k.val; omega
      exact congrArg (V c main_v10) hw
  · exact congrArg (V c main_v11) h3

/-- An entry of the output array lies in point t's block iff its row and column lie in the block's ranges. -/
theorem mem_block (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v45).slice (win3_4.rect t)).set ↔ _
  rw [View.set_slice_whole, Rect.mem_set_unit]
  exact Iff.rfl

/-- Row r is in the block of point r / 5000. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := block_of_point ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The output array after the region: the update of the arrays the region found. -/
theorem result (c : Dev nD) :
    (dat3 V c).arrAt 4 cfg3.N = updRows (n := 100000) (V c main_v30) (V c main_v44) (V c main_v10) (V c main_v11) :=
  (dat3 V c).arrAt_eq_of_cover 4 _ (fun t _ => written_back V c t) covered

end Cert.KernelIdeal.Reg3

end
-- ==== Proof.Reg4.lean ====
/-
  Region 4 of the kernel program: a row-blocked product x · wᵀ.

  The grid has 20 points; point t stages rows 5000·t … 5000·t + 4999 of the state array and the whole 64×64 matrix,
  and writes back the same rows of the output array. A row of x · wᵀ depends on that row of x only, so what point t
  writes back is block t of the whole array's x · wᵀ; the 20 blocks cover the 100000 rows, so the output array ends as
  x · wᵀ of the arrays the region found.
-/
import proofs.«108213_j26422638805509_1_alg».proof.Proof.Gen.KernelIdeal.Frame
import proofs.«108213_j26422638805509_1_alg».proof.Proof.NodeStep

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)
open Cert.NodeStep

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry of the block: the block's row against the matrix's row. -/
theorem stored_apply (xb : Vec Ideal S5000x64 .f32) (w : Vec Ideal S64x64 .f32) (j : S5000x64.Idx) :
    k4_pay1 xb w j = rowsDot (n := 5000) xb w j := by
  unfold k4_pay1
  simp only [shapeCast_self]
  exact matmul_rows (n := 5000) xb w _ _ j

/-- The index maps over the grid: the state's and the output's block move together down the rows, the matrix stays. -/
theorem index_maps : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the 20 row blocks is some point's. -/
theorem block_of_point : ∀ q : Fin 20, ∃ t : Fin cfg4.N, win4_2.index t = ![q.val, 0] :=
  (by decide +kernel : ∀ q : Fin 20, ∃ t : Fin grid4.N, win4_2.index t = ![q.val, 0])

/-- What point t writes back is block t of x · wᵀ of the arrays the region found. -/
theorem written_back (c : Dev nD) (t : Fin cfg4.N) :
    (dat4 V c).flushed 2 t
      = ((cfg4.win 2).blk t).view.read (Elt Ideal) (rowsDot (n := 100000) (V c main_v45) (V c main_arg4)) := by
  show (cfg4.win 2).cut (grid4.coords t) ((dat4 V c).after 2 t) = _
  rw [after4_2]
  unfold out4_2
  rw [View.canon_unit_zero origin]
  simp only [View.ld_unit_zero (S := S5000x64) origin, View.ld_unit_zero (S := S64x64) origin]
  obtain ⟨e0, e1, e2, e3, e4⟩ := index_maps t
  funext j
  show k4_pay1 (iblk4 V c 0 t) (iblk4 V c 1 t) j
      = rowsDot (n := 100000) (V c main_v45) (V c main_arg4) (((cfg4.win 2).blk t).view.emb j)
  refine (stored_apply (iblk4 V c 0 t) (iblk4 V c 1 t) j).trans ?_
  refine rowsDot_congr (iblk4 V c 0 t) (iblk4 V c 1 t) (V c main_v45) (V c main_arg4) j (((cfg4.win 2).blk t).view.emb j)
    (fun k => ?_) (fun k => ?_)
  · have hx : ((cfg4.win 0).blk t).view.emb (ix2 (j 0) k) = ix2 ((((cfg4.win 2).blk t).view.emb j) 0) k := by
      funext a; apply Fin.ext
      match a with
      | ⟨0, _⟩ => show win4_0.index t (0 : Fin 2) * 5000 + 1 * (j 0).val = win4_2.index t (0 : Fin 2) * 5000 + 1 * (j 0).val; omega
      | ⟨1, _⟩ => show win4_0.index t (1 : Fin 2) * 64 + 1 * k.val = k.val; omega
    exact congrArg (V c main_v45) hx
  · have hw : ((cfg4.win 1).blk t).view.emb (ix2 (j 1) k) = ix2 ((((cfg4.win 2).blk t).view.emb j) 1) k := by
      funext a; apply Fin.ext
      match a with
      | ⟨0, _⟩ => show win4_1.index t (0 : Fin 2) * 64 + 1 * (j 1).val = win4_2.index t (1 : Fin 2) * 64 + 1 * (j 1).val; omega
      | ⟨1, _⟩ => show win4_1.index t (1 : Fin 2) * 64 + 1 * k.val = k.val; omega
    exact congrArg (V c main_arg4) hw

/-- An entry of the output array lies in point t's block iff its row and column lie in the block's ranges. -/
theorem mem_block (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v46).slice (win4_2.rect t)).set ↔ _
  rw [View.set_slice_whole, Rect.mem_set_unit]
  exact Iff.rfl

/-- Row r is in the block of point r / 5000. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := block_of_point ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The output array after the region: x · wᵀ of the arrays the region found. -/
theorem result (c : Dev nD) :
    (dat4 V c).arrAt 2 cfg4.N = rowsDot (n := 100000) (V c main_v45) (V c main_arg4) :=
  (dat4 V c).arrAt_eq_of_cover 2 _ (fun t _ => written_back V c t) covered

end Cert.KernelIdeal.Reg4

end
-- ==== Proof.Reg5.lean ====
/-
  Region 5 of the kernel program: the row-blocked update x' = x + ε · tanh (x · aᵀ + g + b).

  The grid has 20 points; point t stages rows 5000·t … 5000·t + 4999 of the state array x and of the aggregated
  messages g, the whole 64×64 matrix a and the one-row matrix b, and writes back the same rows of the output array.
  Row r of the update reads row r of x and of g only, so what point t writes back is block t of the whole arrays'
  update; the 20 blocks cover the 100000 rows, so the output array ends as the update of the arrays the region found.
-/
import proofs.«108213_j26422638805509_1_alg».proof.Proof.Gen.KernelIdeal.Frame
import proofs.«108213_j26422638805509_1_alg».proof.Proof.NodeStep

set_option maxRecDepth 16384

noncomputable section

namespace Cert.KernelIdeal.Reg5

open Cert.KernelIdeal Cert.KernelIdeal.Gen Idealize.ShloMosaic Idealize.ShloMosaic.TcCoe Idealize.SL.Sem
open Idealize.ShloMosaic.ValueIdx
open Idealize.ShloMosaic.Pipeline (Dat)
open Cert.NodeStep

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry of the block: the update of the block's row. -/
theorem stored_apply (xb : Vec Ideal S5000x64 .f32) (a : Vec Ideal S64x64 .f32) (gb : Vec Ideal S5000x64 .f32)
    (b : Vec Ideal S1x64 .f32) (j : S5000x64.Idx) :
    k5_pay1 xb a gb b j = updRows (n := 5000) xb gb a b j := by
  unfold k5_pay1
  simp only [shapeCast_self]
  have hm := matmul_rows (n := 5000) xb a bitsLt_bf16_f32 transposes_S64x64_p1_0_S64x64 j
  have hb : broadcastTo S5000x64 b broadcasts_S1x64_S5000x64 j = b (ix2 0 (j 1)) :=
    broadcastTo_apply b broadcasts_S1x64_S5000x64 j (ix2 0 (j 1)) fun a => by
      match a with
      | ⟨0, _⟩ => rfl
      | ⟨1, _⟩ => rfl
  exact congrArg (fun z => xb j + eps * Ideal.tanh z) (congr (congrArg HAdd.hAdd (congrArg (fun y => y + gb j) hm)) hb)

/-- The index maps over the grid: the state's, the messages' and the output's block move together down the rows, the
    matrix and the one-row matrix stay. -/
theorem index_maps : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (1 : Fin 2) = 0 :=
  (by decide +kernel : ∀ t : Fin grid5.N, _)

/-- Every one of the 20 row blocks is some point's. -/
theorem block_of_point : ∀ q : Fin 20, ∃ t : Fin cfg5.N, win5_4.index t = ![q.val, 0] :=
  (by decide +kernel : ∀ q : Fin 20, ∃ t : Fin grid5.N, win5_4.index t = ![q.val, 0])

set_option maxHeartbeats 1600000 in
/-- What point t writes back is block t of the update of the arrays the region found. -/
theorem written_back (c : Dev nD) (t : Fin cfg5.N) :
    (dat5 V c).flushed 4 t
      = ((cfg5.win 4).blk t).view.read (Elt Ideal)
          (updRows (n := 100000) (V c main_v45) (V c main_v59) (V c main_v10) (V c main_v11)) := by
  show (cfg5.win 4).cut (grid5.coords t) ((dat5 V c).after 4 t) = _
  rw [after5_4]
  unfold out5_4
  rw [View.canon_unit_zero origin]
  simp only [View.ld_unit_zero (S := S5000x64) origin, View.ld_unit_zero (S := S64x64) origin, View.ld_unit_zero (S := S1x64) origin]
  obtain ⟨e0, e1, e2, e3, e4, e5, e6, e7, e8⟩ := index_maps t
  funext j
  show k5_pay1 (iblk5 V c 0 t) (iblk5 V c 2 t) (iblk5 V c 1 t) (iblk5 V c 3 t) j
      = updRows (n := 100000) (V c main_v45) (V c main_v59) (V c main_v10) (V c main_v11) (((cfg5.win 4).blk t).view.emb j)
  refine (stored_apply (iblk5 V c 0 t) (iblk5 V c 2 t) (iblk5 V c 1 t) (iblk5 V c 3 t) j).trans ?_
  have h0 : ((cfg5.win 0).blk t).view.emb j = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  have h1 : ((cfg5.win 1).blk t).view.emb j = ((cfg5.win 4).blk t).view.emb j := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 64 + 1 * (j 1).val = win5_4.index t (1 : Fin 2) * 64 + 1 * (j 1).val; omega
  have h3 : ((cfg5.win 3).blk t).view.emb (ix2 0 (j 1)) = ix2 0 ((((cfg5.win 4).blk t).view.emb j) 1) := by
    funext a; apply Fin.ext
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega
  refine updRows_congr (iblk5 V c 0 t) (iblk5 V c 1 t) (iblk5 V c 2 t) (iblk5 V c 3 t)
    (V c main_v45) (V c main_v59) (V c main_v10) (V c main_v11) j (((cfg5.win 4).blk t).view.emb j) ?_ ?_ ?_ ?_
  · exact congrArg (V c main_v45) h0
  · exact congrArg (V c main_v59) h1
  · refine rowsDot_congr (iblk5 V c 0 t) (iblk5 V c 2 t) (V c main_v45) (V c main_v10) j (((cfg5.win 4).blk t).view.emb j)
      (fun k => ?_) (fun k => ?_)
    · have hx : ((cfg5.win 0).blk t).view.emb (ix2 (j 0) k) = ix2 ((((cfg5.win 4).blk t).view.emb j) 0) k := by
        funext a; apply Fin.ext
        match a with
        | ⟨0, _⟩ => show win5_0.index t (0 : Fin 2) * 5000 + 1 * (j 0).val = win5_4.index t (0 : Fin 2) * 5000 + 1 * (j 0).val; omega
        | ⟨1, _⟩ => show win5_0.index t (1 : Fin 2) * 64 + 1 * k.val = k.val; omega
      exact congrArg (V c main_v45) hx
    · have hw : ((cfg5.win 2).blk t).view.emb (ix2 (j 1) k) = ix2 ((((cfg5.win 4).blk t).view.emb j) 1) k := by
        funext a; apply Fin.ext
        match a with
        | ⟨0, _⟩ => show win5_2.index t (0 : Fin 2) * 64 + 1 * (j 1).val = win5_4.index t (1 : Fin 2) * 64 + 1 * (j 1).val; omega
        | ⟨1, _⟩ => show win5_2.index t (1 : Fin 2) * 64 + 1 * k.val = k.val; omega
      exact congrArg (V c main_v10) hw
  · exact congrArg (V c main_v11) h3

/-- An entry of the output array lies in point t's block iff its row and column lie in the block's ranges. -/
theorem mem_block (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v60).slice (win5_4.rect t)).set ↔ _
  rw [View.set_slice_whole, Rect.mem_set_unit]
  exact Iff.rfl

/-- Row r is in the block of point r / 5000. -/
theorem covered (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := block_of_point ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_block]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The output array after the region: the update of the arrays the region found. -/
theorem result (c : Dev nD) :
    (dat5 V c).arrAt 4 cfg5.N = updRows (n := 100000) (V c main_v45) (V c main_v59) (V c main_v10) (V c main_v11) :=
  (dat5 V c).arrAt_eq_of_cover 4 _ (fun t _ => written_back V c t) covered

end Cert.KernelIdeal.Reg5

end
-- ==== Proof.Reg6.lean ====
/-
  Region 6 of the kernel program: a row-blocked product x · wᵀ.

  The grid has 20 points; point t stages rows 5000·t … 5000·t + 4999 of the state array and the whole 64×64 matrix,
  and writes back the same rows of the output array. A row of x · wᵀ depends on that row of x only, so what point t
  writes back is block t of the whole array's x · wᵀ; the 20 blocks cover the 100000 rows, so the output array ends as
  x · wᵀ of the arrays the region found.
-/
import proofs.«108213_j26422638805509_1_alg».proof.Proof.Gen.KernelIdeal.Frame
import proofs.«108213_j26422638805509_1_alg».proof.Proof.NodeStep

set_option maxRecDepth 16384

noncomputable section

namespace Cert.KernelIdeal.Reg6

open Cert.KernelIdeal Cert.KernelIdeal.Gen Idealize.ShloMosaic Idealize.ShloMosaic.TcCoe Idealize.SL.Sem
open Idealize.ShloMosaic.ValueIdx
open Idealize.ShloMosaic.Pipeline (Dat)
open Cert.NodeStep

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry of the block: the block's row against the matrix's row. -/
theorem stored_apply (xb : Vec Ideal S5000x64 .f32) (w : Vec Ideal S64x64 .f32) (j : S5000x64.Idx) :
    k6_pay1 xb w j = rowsDot (n := 5000) xb w j := by
  unfold k6_pay1
  simp only [shapeCast_self]
  exact matmul_rows (n := 5000) xb w _ _ j

/-- The index maps over the grid: the state's and the output's block move together down the rows, the matrix stays. -/
theorem index_maps : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every one of the 20 row blocks is some point's. -/
theorem block_of_point : ∀ q : Fin 20, ∃ t : Fin cfg6.N, win6_2.index t = ![q.val, 0] :=
  (by decide +kernel : ∀ q : Fin 20, ∃ t : Fin grid6.N, win6_2.index t = ![q.val, 0])

/-- What point t writes back is block t of x · wᵀ of the arrays the region found. -/
theorem written_back (c : Dev nD) (t : Fin cfg6.N) :
    (dat6 V c).flushed 2 t
      = ((cfg6.win 2).blk t).view.read (Elt Ideal) (rowsDot (n := 100000) (V c main_v60) (V c main_arg4)) := by
  show (cfg6.win 2).cut (grid6.coords t) ((dat6 V c).after 2 t) = _
  rw [after6_2]
  unfold out6_2
  rw [View.canon_unit_zero origin]
  simp only [View.ld_unit_zero (S := S5000x64) origin, View.ld_unit_zero (S := S64x64) origin]
  obtain ⟨e0, e1, e2, e3, e4⟩ := index_maps t
  funext j
  show k6_pay1 (iblk6 V c 0 t) (iblk6 V c 1 t) j
      = rowsDot (n := 100000) (V c main_v60) (V c main_arg4) (((cfg6.win 2).blk t).view.emb j)
  refine (stored_apply (iblk6 V c 0 t) (iblk6 V c 1 t) j).trans ?_
  refine rowsDot_congr (iblk6 V c 0 t) (iblk6 V c 1 t) (V c main_v60) (V c main_arg4) j (((cfg6.win 2).blk t).view.emb j)
    (fun k => ?_) (fun k => ?_)
  · have hx : ((cfg6.win 0).blk t).view.emb (ix2 (j 0) k) = ix2 ((((cfg6.win 2).blk t).view.emb j) 0) k := by
      funext a; apply Fin.ext
      match a with
      | ⟨0, _⟩ => show win6_0.index t (0 : Fin 2) * 5000 + 1 * (j 0).val = win6_2.index t (0 : Fin 2) * 5000 + 1 * (j 0).val; omega
      | ⟨1, _⟩ => show win6_0.index t (1 : Fin 2) * 64 + 1 * k.val = k.val; omega
    exact congrArg (V c main_v60) hx
  · have hw : ((cfg6.win 1).blk t).view.emb (ix2 (j 1) k) = ix2 ((((cfg6.win 2).blk t).view.emb j) 1) k := by
      funext a; apply Fin.ext
      match a with
      | ⟨0, _⟩ => show win6_1.index t (0 : Fin 2) * 64 + 1 * (j 1).val = win6_2.index t (1 : Fin 2) * 64 + 1 * (j 1).val; omega
      | ⟨1, _⟩ => show win6_1.index t (1 : Fin 2) * 64 + 1 * k.val = k.val; omega
    exact congrArg (V c main_arg4) hw

/-- An entry of the output array lies in point t's block iff its row and column lie in the block's ranges. -/
theorem mem_block (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v61).slice (win6_2.rect t)).set ↔ _
  rw [View.set_slice_whole, Rect.mem_set_unit]
  exact Iff.rfl

/-- Row r is in the block of point r / 5000. -/
theorem covered (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := block_of_point ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_block]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The output array after the region: x · wᵀ of the arrays the region found. -/
theorem result (c : Dev nD) :
    (dat6 V c).arrAt 2 cfg6.N = rowsDot (n := 100000) (V c main_v60) (V c main_arg4) :=
  (dat6 V c).arrAt_eq_of_cover 2 _ (fun t _ => written_back V c t) covered

end Cert.KernelIdeal.Reg6

end
-- ==== Proof.Reg7.lean ====
/-
  Region 7 of the kernel program: the row-blocked update x' = x + ε · tanh (x · aᵀ + g + b).

  The grid has 20 points; point t stages rows 5000·t … 5000·t + 4999 of the state array x and of the aggregated
  messages g, the whole 64×64 matrix a and the one-row matrix b, and writes back the same rows of the output array.
  Row r of the update reads row r of x and of g only, so what point t writes back is block t of the whole arrays'
  update; the 20 blocks cover the 100000 rows, so the output array ends as the update of the arrays the region found.
-/
import proofs.«108213_j26422638805509_1_alg».proof.Proof.Gen.KernelIdeal.Frame
import proofs.«108213_j26422638805509_1_alg».proof.Proof.NodeStep

set_option maxRecDepth 16384

noncomputable section

namespace Cert.KernelIdeal.Reg7

open Cert.KernelIdeal Cert.KernelIdeal.Gen Idealize.ShloMosaic Idealize.ShloMosaic.TcCoe Idealize.SL.Sem
open Idealize.ShloMosaic.ValueIdx
open Idealize.ShloMosaic.Pipeline (Dat)
open Cert.NodeStep

variable (V : (c : Dev nD) → (b : Ref sig .tc) → Buf (Elt Ideal) ((c : Thread nD τ).loc b))

theorem origin : (![0, 0] : Fin 2 → Nat) = fun _ => 0 := funext fun a => by fin_cases a <;> rfl

/-- The body's stored value at an entry of the block: the update of the block's row. -/
theorem stored_apply (xb : Vec Ideal S5000x64 .f32) (a : Vec Ideal S64x64 .f32) (gb : Vec Ideal S5000x64 .f32)
    (b : Vec Ideal S1x64 .f32) (j : S5000x64.Idx) :
    k7_pay1 xb a gb b j = updRows (n := 5000) xb gb a b j := by
  unfold k7_pay1
  simp only [shapeCast_self]
  have hm := matmul_rows (n := 5000) xb a bitsLt_bf16_f32 transposes_S64x64_p1_0_S64x64 j
  have hb : broadcastTo S5000x64 b broadcasts_S1x64_S5000x64 j = b (ix2 0 (j 1)) :=
    broadcastTo_apply b broadcasts_S1x64_S5000x64 j (ix2 0 (j 1)) fun a => by
      match a with
      | ⟨0, _⟩ => rfl
      | ⟨1, _⟩ => rfl
  exact congrArg (fun z => xb j + eps * Ideal.tanh z) (congr (congrArg HAdd.hAdd (congrArg (fun y => y + gb j) hm)) hb)

/-- The index maps over the grid: the state's, the messages' and the output's block move together down the rows, the
    matrix and the one-row matrix stay. -/
theorem index_maps : ∀ t : Fin cfg7.N, win7_0.index t (0 : Fin 2) = win7_4.index t (0 : Fin 2)
    ∧ win7_0.index t (1 : Fin 2) = 0
    ∧ win7_1.index t (0 : Fin 2) = win7_4.index t (0 : Fin 2)
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (1 : Fin 2) = 0 :=
  (by decide +kernel : ∀ t : Fin grid7.N, _)

/-- Every one of the 20 row blocks is some point's. -/
theorem block_of_point : ∀ q : Fin 20, ∃ t : Fin cfg7.N, win7_4.index t = ![q.val, 0] :=
  (by decide +kernel : ∀ q : Fin 20, ∃ t : Fin grid7.N, win7_4.index t = ![q.val, 0])

set_option maxHeartbeats 1600000 in
/-- What point t writes back is block t of the update of the arrays the region found. -/
theorem written_back (c : Dev nD) (t : Fin cfg7.N) :
    (dat7 V c).flushed 4 t
      = ((cfg7.win 4).blk t).view.read (Elt Ideal)
          (updRows (n := 100000) (V c main_v60) (V c main_v74) (V c main_v10) (V c main_v11)) := by
  show (cfg7.win 4).cut (grid7.coords t) ((dat7 V c).after 4 t) = _
  rw [after7_4]
  unfold out7_4
  rw [View.canon_unit_zero origin]
  simp only [View.ld_unit_zero (S := S5000x64) origin, View.ld_unit_zero (S := S64x64) origin, View.ld_unit_zero (S := S1x64) origin]
  obtain ⟨e0, e1, e2, e3, e4, e5, e6, e7, e8⟩ := index_maps t
  funext j
  show k7_pay1 (iblk7 V c 0 t) (iblk7 V c 2 t) (iblk7 V c 1 t) (iblk7 V c 3 t) j
      = updRows (n := 100000) (V c main_v60) (V c main_v74) (V c main_v10) (V c main_v11) (((cfg7.win 4).blk t).view.emb j)
  refine (stored_apply (iblk7 V c 0 t) (iblk7 V c 2 t) (iblk7 V c 1 t) (iblk7 V c 3 t) j).trans ?_
  have h0 : ((cfg7.win 0).blk t).view.emb j = ((cfg7.win 4).blk t).view.emb j := by
    funext a; apply Fin.ext
    match a with
    | ⟨0, _⟩ => show win7_0.index t (0 : Fin 2) * 5000 + 1 * (j 0).val = win7_4.index t (0 : Fin 2) * 5000 + 1 * (j 0).val; omega
    | ⟨1, _⟩ => show win7_0.index t (1 : Fin 2) * 64 + 1 * (j 1).val = win7_4.index t (1 : Fin 2) * 64 + 1 * (j 1).val; omega
  have h1 : ((cfg7.win 1).blk t).view.emb j = ((cfg7.win 4).blk t).view.emb j := by
    funext a; apply Fin.ext
    match a with
    | ⟨0, _⟩ => show win7_1.index t (0 : Fin 2) * 5000 + 1 * (j 0).val = win7_4.index t (0 : Fin 2) * 5000 + 1 * (j 0).val; omega
    | ⟨1, _⟩ => show win7_1.index t (1 : Fin 2) * 64 + 1 * (j 1).val = win7_4.index t (1 : Fin 2) * 64 + 1 * (j 1).val; omega
  have h3 : ((cfg7.win 3).blk t).view.emb (ix2 0 (j 1)) = ix2 0 ((((cfg7.win 4).blk t).view.emb j) 1) := by
    funext a; apply Fin.ext
    match a with
    | ⟨0, _⟩ => show win7_3.index t (0 : Fin 2) * 1 + 1 * 0 = 0; omega
    | ⟨1, _⟩ => show win7_3.index t (1 : Fin 2) * 64 + 1 * (j 1).val = win7_4.index t (1 : Fin 2) * 64 + 1 * (j 1).val; omega
  refine updRows_congr (iblk7 V c 0 t) (iblk7 V c 1 t) (iblk7 V c 2 t) (iblk7 V c 3 t)
    (V c main_v60) (V c main_v74) (V c main_v10) (V c main_v11) j (((cfg7.win 4).blk t).view.emb j) ?_ ?_ ?_ ?_
  · exact congrArg (V c main_v60) h0
  · exact congrArg (V c main_v74) h1
  · refine rowsDot_congr (iblk7 V c 0 t) (iblk7 V c 2 t) (V c main_v60) (V c main_v10) j (((cfg7.win 4).blk t).view.emb j)
      (fun k => ?_) (fun k => ?_)
    · have hx : ((cfg7.win 0).blk t).view.emb (ix2 (j 0) k) = ix2 ((((cfg7.win 4).blk t).view.emb j) 0) k := by
        funext a; apply Fin.ext
        match a with
        | ⟨0, _⟩ => show win7_0.index t (0 : Fin 2) * 5000 + 1 * (j 0).val = win7_4.index t (0 : Fin 2) * 5000 + 1 * (j 0).val; omega
        | ⟨1, _⟩ => show win7_0.index t (1 : Fin 2) * 64 + 1 * k.val = k.val; omega
      exact congrArg (V c main_v60) hx
    · have hw : ((cfg7.win 2).blk t).view.emb (ix2 (j 1) k) = ix2 ((((cfg7.win 4).blk t).view.emb j) 1) k := by
        funext a; apply Fin.ext
        match a with
        | ⟨0, _⟩ => show win7_2.index t (0 : Fin 2) * 64 + 1 * (j 1).val = win7_4.index t (1 : Fin 2) * 64 + 1 * (j 1).val; omega
        | ⟨1, _⟩ => show win7_2.index t (1 : Fin 2) * 64 + 1 * k.val = k.val; omega
      exact congrArg (V c main_v10) hw
  · exact congrArg (V c main_v11) h3

/-- An entry of the output array lies in point t's block iff its row and column lie in the block's ranges. -/
theorem mem_block (t : Fin cfg7.N) (i : S100000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v75).slice (win7_4.rect t)).set ↔ _
  rw [View.set_slice_whole, Rect.mem_set_unit]
  exact Iff.rfl

/-- Row r is in the block of point r / 5000. -/
theorem covered (i : S100000x64.Idx) :
    ∃ t : Fin cfg7.N, (cfg7.win 4).flush t = true ∧ i ∈ ((cfg7.win 4).blk t).view.set := by
  have hi0 : (i 0).val < 100000 := (i 0).isLt
  have hi1 : (i 1).val < 64 := (i 1).isLt
  obtain ⟨t, ht⟩ := block_of_point ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [mem_block]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 64 ≤ (i 1).val ∧ (i 1).val < win7_4.index t (1 : Fin 2) * 64 + 64; omega

/-- The output array after the region: the update of the arrays the region found. -/
theorem result (c : Dev nD) :
    (dat7 V c).arrAt 4 cfg7.N = updRows (n := 100000) (V c main_v60) (V c main_v74) (V c main_v10) (V c main_v11) :=
  (dat7 V c).arrAt_eq_of_cover 4 _ (fun t _ => written_back V c t) covered

end Cert.KernelIdeal.Reg7

end
-- ==== Proof.Fold.lean ====
/-
  The kernel program's result as four steps of the node update.

  The program runs the node update four times. One round is: a region computing neigh = x · lwᵀ by row blocks; a
  stretch of host operations aggregating the messages g from neigh along the edges; a region computing
  x' = x + ε · tanh (x · aᵀ + g + b) by row blocks. The matrix a = W − Wᵀ − ε·I, the two edge rows and the bias row are
  computed once, before the first region, and no later operation or region writes them (a region only reads them through
  an input window); likewise the edge weights and lw. So at the entry of every round these buffers hold what they held
  after the first stretch, and the state buffer of round k+1 is the output buffer of round k. Following the buffers'
  contents through the 13 segments gives the result buffer as four steps from the launch contents of x.
-/
import proofs.«108213_j26422638805509_1_alg».proof.Proof.Gen.KernelIdeal.Frame
import proofs.«108213_j26422638805509_1_alg».proof.Proof.NodeStep
import proofs.«108213_j26422638805509_1_alg».proof.Proof.Reg0
import proofs.«108213_j26422638805509_1_alg».proof.Proof.Reg1
import proofs.«108213_j26422638805509_1_alg».proof.Proof.Reg2
import proofs.«108213_j26422638805509_1_alg».proof.Proof.Reg3
import proofs.«108213_j26422638805509_1_alg».proof.Proof.Reg4
import proofs.«108213_j26422638805509_1_alg».proof.Proof.Reg5
import proofs.«108213_j26422638805509_1_alg».proof.Proof.Reg6
import proofs.«108213_j26422638805509_1_alg».proof.Proof.Reg7

set_option maxRecDepth 16384

noncomputable section

namespace Cert.KernelIdeal.Fold

open Cert.KernelIdeal Cert.KernelIdeal.Gen Idealize.ShloMosaic Idealize.ShloMosaic.TcCoe Idealize.SL.Sem
open Idealize.ShloMosaic.Pipeline (Dat)
open Cert.NodeStep

variable (m : (ℓ : Loc nD τ sig) → Buf (Elt Ideal) ℓ) (ρ : Dev nD → PrngReg)

/-- The messages aggregated at each node: every edge e carries weight(e) · neigh(src e) to node dst e, where a negative
    source index counts from the end; the contributions to a node are added up from 0. -/
def messages (neigh : FVec Ideal S100000x64 .f32) (src dst : IVec S1250000 32)
    (ew : FVec Ideal S1250000 .f32) : FVec Ideal S100000x64 .f32 :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (mulf (broadcastInDim S1250000x64 ![0, 1] bcast_S1250000x1_S1250000x64_0_1 (broadcastInDim S1250000x1 ![0] bcast_S1250000_S1250000x1_0 ew))
      (Host.gather gather_S100000x64_S1250000x1_S1250000x64_1_0_n_n_0_1_164 neigh
        (broadcastInDim S1250000x1 ![0] bcast_S1250000_S1250000x1_0
          (select (cmpi .slt src (broadcastInDim S1250000 ![] bcast_S_S1250000 (constantI S_ 32 0#32)))
            (addi src (broadcastInDim S1250000 ![] bcast_S_S1250000 (constantI S_ 32 100000#32))) src))))

/-- W − Wᵀ − ε·I: the 64×64 matrix of the update. -/
def antisym (w : FVec Ideal S64x64 .f32) : FVec Ideal S64x64 .f32 :=
  subf (subf w (transpose S64x64 [1, 0] w transposes_S64x64_S64x64_1_0))
    (mulf (broadcastInDim S64x64 ![] bcast_S_S64x64 (constant (F := Ideal) S_ .f32 0x3DCCCCCD#32))
      (uitofp .f32 (cmpi .eq (addi (iotaInDim S64x64 32 0) (broadcastInDim S64x64 ![] bcast_S_S64x64 (constantI S_ 32 0#32))) (iotaInDim S64x64 32 1))))

/-- Row r of the 2-row edge table, as a vector. -/
def sources (ei : IVec S2x1250000 32) : IVec S1250000 32 :=
  shapeCast S1250000 (extractStridedSlice S1x1250000 ![0, 0] ei slices_S2x1250000_S1x1250000_0_0) shapeCasts_S1x1250000_S1250000
def targets (ei : IVec S2x1250000 32) : IVec S1250000 32 :=
  shapeCast S1250000 (extractStridedSlice S1x1250000 ![1, 0] ei slices_S2x1250000_S1x1250000_1_0) shapeCasts_S1x1250000_S1250000

/-- One step: the update with the messages aggregated from x · lwᵀ. -/
def step (lw a : FVec Ideal S64x64 .f32) (src dst : IVec S1250000 32) (ew : FVec Ideal S1250000 .f32) (b : FVec Ideal S1x64 .f32)
    (x : FVec Ideal S100000x64 .f32) : FVec Ideal S100000x64 .f32 :=
  updRows (n := 100000) x (messages (rowsDot (n := 100000) x lw) src dst ew) a b

/-- A stretch of host operations leaves a buffer none of them writes as it was. -/
macro "host_untouched " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## After the first stretch -/

theorem first_x (c : Dev nD) : W1 m ρ c (Proc.devRef .tc main_arg0) = m ((c : Thread nD τ).loc main_arg0) :=
  (show W1 m ρ c (Proc.devRef .tc main_arg0) = W0 m ρ c (Proc.devRef .tc main_arg0) by host_untouched hostOps0).trans rfl
theorem first_arg2 (c : Dev nD) : W1 m ρ c (Proc.devRef .tc main_arg2) = m ((c : Thread nD τ).loc main_arg2) :=
  (show W1 m ρ c (Proc.devRef .tc main_arg2) = W0 m ρ c (Proc.devRef .tc main_arg2) by host_untouched hostOps0).trans rfl
theorem first_arg4 (c : Dev nD) : W1 m ρ c (Proc.devRef .tc main_arg4) = m ((c : Thread nD τ).loc main_arg4) :=
  (show W1 m ρ c (Proc.devRef .tc main_arg4) = W0 m ρ c (Proc.devRef .tc main_arg4) by host_untouched hostOps0).trans rfl
theorem first_v10 (c : Dev nD) : W1 m ρ c (Proc.devRef .tc main_v10) = antisym (m ((c : Thread nD τ).loc main_arg3)) := by
  show StableHlo.after hostOps0 (W0 m ρ c) (Proc.devRef .tc main_v10) = _
  unfold antisym
  after_results_simp <;> rfl
theorem first_v11 (c : Dev nD) : W1 m ρ c (Proc.devRef .tc main_v11) = shapeCast S1x64 (m ((c : Thread nD τ).loc main_arg5)) shapeCasts_S64_S1x64 := by
  show StableHlo.after hostOps0 (W0 m ρ c) (Proc.devRef .tc main_v11) = _
  after_results_simp <;> rfl
theorem first_v13 (c : Dev nD) : W1 m ρ c (Proc.devRef .tc main_v13) = sources (m ((c : Thread nD τ).loc main_arg1)) := by
  show StableHlo.after hostOps0 (W0 m ρ c) (Proc.devRef .tc main_v13) = _
  unfold sources
  after_results_simp <;> rfl
theorem first_v15 (c : Dev nD) : W1 m ρ c (Proc.devRef .tc main_v15) = targets (m ((c : Thread nD τ).loc main_arg1)) := by
  show StableHlo.after hostOps0 (W0 m ρ c) (Proc.devRef .tc main_v15) = _
  unfold targets
  after_results_simp <;> rfl

/-! ## Round 0: region 0 (x · lwᵀ), the messages, region 1 (the update) -/

theorem keepM0_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem keepH0_arg0 (c : Dev nD) : W3 m ρ c (Proc.devRef .tc main_arg0) = W2 m ρ c (Proc.devRef .tc main_arg0) := by
  host_untouched hostOps1
theorem keepM0_arg2 (c : Dev nD) : W2 m ρ c (Proc.devRef .tc main_arg2) = W1 m ρ c (Proc.devRef .tc main_arg2) :=
  W2_of_ne m ρ c main_arg2 (by decide)
theorem keepH0_arg2 (c : Dev nD) : W3 m ρ c (Proc.devRef .tc main_arg2) = W2 m ρ c (Proc.devRef .tc main_arg2) := by
  host_untouched hostOps1
theorem keepM0_arg4 (c : Dev nD) : W2 m ρ c (Proc.devRef .tc main_arg4) = W1 m ρ c (Proc.devRef .tc main_arg4) :=
  (W2_arr m ρ c 1).trans (((dat0 (V1 m ρ) c).arrAt_in 1 rfl _).trans (A_eq0 (V1 m ρ) c 1))
theorem keepH0_arg4 (c : Dev nD) : W3 m ρ c (Proc.devRef .tc main_arg4) = W2 m ρ c (Proc.devRef .tc main_arg4) := by
  host_untouched hostOps1
theorem keepM0_v10 (c : Dev nD) : W2 m ρ c (Proc.devRef .tc main_v10) = W1 m ρ c (Proc.devRef .tc main_v10) :=
  W2_of_ne m ρ c main_v10 (by decide)
theorem keepH0_v10 (c : Dev nD) : W3 m ρ c (Proc.devRef .tc main_v10) = W2 m ρ c (Proc.devRef .tc main_v10) := by
  host_untouched hostOps1
theorem keepM0_v11 (c : Dev nD) : W2 m ρ c (Proc.devRef .tc main_v11) = W1 m ρ c (Proc.devRef .tc main_v11) :=
  W2_of_ne m ρ c main_v11 (by decide)
theorem keepH0_v11 (c : Dev nD) : W3 m ρ c (Proc.devRef .tc main_v11) = W2 m ρ c (Proc.devRef .tc main_v11) := by
  host_untouched hostOps1
theorem keepM0_v13 (c : Dev nD) : W2 m ρ c (Proc.devRef .tc main_v13) = W1 m ρ c (Proc.devRef .tc main_v13) :=
  W2_of_ne m ρ c main_v13 (by decide)
theorem keepH0_v13 (c : Dev nD) : W3 m ρ c (Proc.devRef .tc main_v13) = W2 m ρ c (Proc.devRef .tc main_v13) := by
  host_untouched hostOps1
theorem keepM0_v15 (c : Dev nD) : W2 m ρ c (Proc.devRef .tc main_v15) = W1 m ρ c (Proc.devRef .tc main_v15) :=
  W2_of_ne m ρ c main_v15 (by decide)
theorem keepH0_v15 (c : Dev nD) : W3 m ρ c (Proc.devRef .tc main_v15) = W2 m ρ c (Proc.devRef .tc main_v15) := by
  host_untouched hostOps1
theorem keepU0_arg2 (c : Dev nD) : W4 m ρ c (Proc.devRef .tc main_arg2) = W3 m ρ c (Proc.devRef .tc main_arg2) :=
  W4_of_ne m ρ c main_arg2 (by decide)
theorem keep0_arg2 (c : Dev nD) : W4 m ρ c (Proc.devRef .tc main_arg2) = W1 m ρ c (Proc.devRef .tc main_arg2) :=
  (keepU0_arg2 m ρ c).trans ((keepH0_arg2 m ρ c).trans (keepM0_arg2 m ρ c))
theorem keepU0_arg4 (c : Dev nD) : W4 m ρ c (Proc.devRef .tc main_arg4) = W3 m ρ c (Proc.devRef .tc main_arg4) :=
  W4_of_ne m ρ c main_arg4 (by decide)
theorem keep0_arg4 (c : Dev nD) : W4 m ρ c (Proc.devRef .tc main_arg4) = W1 m ρ c (Proc.devRef .tc main_arg4) :=
  (keepU0_arg4 m ρ c).trans ((keepH0_arg4 m ρ c).trans (keepM0_arg4 m ρ c))
theorem keepU0_v10 (c : Dev nD) : W4 m ρ c (Proc.devRef .tc main_v10) = W3 m ρ c (Proc.devRef .tc main_v10) :=
  (W4_arr m ρ c 2).trans (((dat1 (V3 m ρ) c).arrAt_in 2 rfl _).trans (A_eq1 (V3 m ρ) c 2))
theorem keep0_v10 (c : Dev nD) : W4 m ρ c (Proc.devRef .tc main_v10) = W1 m ρ c (Proc.devRef .tc main_v10) :=
  (keepU0_v10 m ρ c).trans ((keepH0_v10 m ρ c).trans (keepM0_v10 m ρ c))
theorem keepU0_v11 (c : Dev nD) : W4 m ρ c (Proc.devRef .tc main_v11) = W3 m ρ c (Proc.devRef .tc main_v11) :=
  (W4_arr m ρ c 3).trans (((dat1 (V3 m ρ) c).arrAt_in 3 rfl _).trans (A_eq1 (V3 m ρ) c 3))
theorem keep0_v11 (c : Dev nD) : W4 m ρ c (Proc.devRef .tc main_v11) = W1 m ρ c (Proc.devRef .tc main_v11) :=
  (keepU0_v11 m ρ c).trans ((keepH0_v11 m ρ c).trans (keepM0_v11 m ρ c))
theorem keepU0_v13 (c : Dev nD) : W4 m ρ c (Proc.devRef .tc main_v13) = W3 m ρ c (Proc.devRef .tc main_v13) :=
  W4_of_ne m ρ c main_v13 (by decide)
theorem keep0_v13 (c : Dev nD) : W4 m ρ c (Proc.devRef .tc main_v13) = W1 m ρ c (Proc.devRef .tc main_v13) :=
  (keepU0_v13 m ρ c).trans ((keepH0_v13 m ρ c).trans (keepM0_v13 m ρ c))
theorem keepU0_v15 (c : Dev nD) : W4 m ρ c (Proc.devRef .tc main_v15) = W3 m ρ c (Proc.devRef .tc main_v15) :=
  W4_of_ne m ρ c main_v15 (by decide)
theorem keep0_v15 (c : Dev nD) : W4 m ρ c (Proc.devRef .tc main_v15) = W1 m ρ c (Proc.devRef .tc main_v15) :=
  (keepU0_v15 m ρ c).trans ((keepH0_v15 m ρ c).trans (keepM0_v15 m ρ c))

/-- Region 0 leaves x · lwᵀ of the round's state in the neighbour buffer. -/
theorem neigh0 (c : Dev nD) : W2 m ρ c (Proc.devRef .tc main_v16) = rowsDot (n := 100000) (W1 m ρ c (Proc.devRef .tc main_arg0)) (W1 m ρ c (Proc.devRef .tc main_arg4)) :=
  (W2_arr m ρ c 2).trans (Cert.KernelIdeal.Reg0.result (V1 m ρ) c)

set_option maxHeartbeats 4000000 in
/-- The stretch of host operations leaves the aggregated messages of the neighbour buffer. -/
theorem agg0 (c : Dev nD) : W3 m ρ c (Proc.devRef .tc main_v29)
    = messages (W2 m ρ c (Proc.devRef .tc main_v16)) (W2 m ρ c (Proc.devRef .tc main_v13)) (W2 m ρ c (Proc.devRef .tc main_v15)) (W2 m ρ c (Proc.devRef .tc main_arg2)) := by
  show StableHlo.after hostOps1 (W2 m ρ c) (Proc.devRef .tc main_v29) = _
  unfold messages
  after_results_simp <;> rfl

/-- Round 0: the new state buffer holds one step of the round's state. -/
theorem round0 (c : Dev nD) : W4 m ρ c (Proc.devRef .tc main_v30)
    = step (W1 m ρ c (Proc.devRef .tc main_arg4)) (W1 m ρ c (Proc.devRef .tc main_v10)) (W1 m ρ c (Proc.devRef .tc main_v13)) (W1 m ρ c (Proc.devRef .tc main_v15)) (W1 m ρ c (Proc.devRef .tc main_arg2)) (W1 m ρ c (Proc.devRef .tc main_v11)) (W1 m ρ c (Proc.devRef .tc main_arg0)) := by
  refine (W4_arr m ρ c 4).trans ?_
  refine (Cert.KernelIdeal.Reg1.result (V3 m ρ) c).trans ?_
  have hx : V3 m ρ c main_arg0 = W1 m ρ c (Proc.devRef .tc main_arg0) := (keepH0_arg0 m ρ c).trans (keepM0_arg0 m ρ c)
  have hg : V3 m ρ c main_v29 = messages (rowsDot (n := 100000) (W1 m ρ c (Proc.devRef .tc main_arg0)) (W1 m ρ c (Proc.devRef .tc main_arg4))) (W1 m ρ c (Proc.devRef .tc main_v13)) (W1 m ρ c (Proc.devRef .tc main_v15)) (W1 m ρ c (Proc.devRef .tc main_arg2)) := by
    refine (agg0 m ρ c).trans ?_
    rw [neigh0 m ρ c, keepM0_v13 m ρ c, keepM0_v15 m ρ c, keepM0_arg2 m ρ c]
  have ha : V3 m ρ c main_v10 = W1 m ρ c (Proc.devRef .tc main_v10) := (keepH0_v10 m ρ c).trans (keepM0_v10 m ρ c)
  have hb : V3 m ρ c main_v11 = W1 m ρ c (Proc.devRef .tc main_v11) := (keepH0_v11 m ρ c).trans (keepM0_v11 m ρ c)
  rw [hx, hg, ha, hb]
  rfl

/-! ## Round 1: region 2 (x · lwᵀ), the messages, region 3 (the update) -/

theorem keepM1_v30 (c : Dev nD) : W5 m ρ c (Proc.devRef .tc main_v30) = W4 m ρ c (Proc.devRef .tc main_v30) :=
  (W5_arr m ρ c 0).trans (((dat2 (V4 m ρ) c).arrAt_in 0 rfl _).trans (A_eq2 (V4 m ρ) c 0))
theorem keepH1_v30 (c : Dev nD) : W6 m ρ c (Proc.devRef .tc main_v30) = W5 m ρ c (Proc.devRef .tc main_v30) := by
  host_untouched hostOps3
theorem keepM1_arg2 (c : Dev nD) : W5 m ρ c (Proc.devRef .tc main_arg2) = W4 m ρ c (Proc.devRef .tc main_arg2) :=
  W5_of_ne m ρ c main_arg2 (by decide)
theorem keepH1_arg2 (c : Dev nD) : W6 m ρ c (Proc.devRef .tc main_arg2) = W5 m ρ c (Proc.devRef .tc main_arg2) := by
  host_untouched hostOps3
theorem keepM1_arg4 (c : Dev nD) : W5 m ρ c (Proc.devRef .tc main_arg4) = W4 m ρ c (Proc.devRef .tc main_arg4) :=
  (W5_arr m ρ c 1).trans (((dat2 (V4 m ρ) c).arrAt_in 1 rfl _).trans (A_eq2 (V4 m ρ) c 1))
theorem keepH1_arg4 (c : Dev nD) : W6 m ρ c (Proc.devRef .tc main_arg4) = W5 m ρ c (Proc.devRef .tc main_arg4) := by
  host_untouched hostOps3
theorem keepM1_v10 (c : Dev nD) : W5 m ρ c (Proc.devRef .tc main_v10) = W4 m ρ c (Proc.devRef .tc main_v10) :=
  W5_of_ne m ρ c main_v10 (by decide)
theorem keepH1_v10 (c : Dev nD) : W6 m ρ c (Proc.devRef .tc main_v10) = W5 m ρ c (Proc.devRef .tc main_v10) := by
  host_untouched hostOps3
theorem keepM1_v11 (c : Dev nD) : W5 m ρ c (Proc.devRef .tc main_v11) = W4 m ρ c (Proc.devRef .tc main_v11) :=
  W5_of_ne m ρ c main_v11 (by decide)
theorem keepH1_v11 (c : Dev nD) : W6 m ρ c (Proc.devRef .tc main_v11) = W5 m ρ c (Proc.devRef .tc main_v11) := by
  host_untouched hostOps3
theorem keepM1_v13 (c : Dev nD) : W5 m ρ c (Proc.devRef .tc main_v13) = W4 m ρ c (Proc.devRef .tc main_v13) :=
  W5_of_ne m ρ c main_v13 (by decide)
theorem keepH1_v13 (c : Dev nD) : W6 m ρ c (Proc.devRef .tc main_v13) = W5 m ρ c (Proc.devRef .tc main_v13) := by
  host_untouched hostOps3
theorem keepM1_v15 (c : Dev nD) : W5 m ρ c (Proc.devRef .tc main_v15) = W4 m ρ c (Proc.devRef .tc main_v15) :=
  W5_of_ne m ρ c main_v15 (by decide)
theorem keepH1_v15 (c : Dev nD) : W6 m ρ c (Proc.devRef .tc main_v15) = W5 m ρ c (Proc.devRef .tc main_v15) := by
  host_untouched hostOps3
theorem keepU1_arg2 (c : Dev nD) : W7 m ρ c (Proc.devRef .tc main_arg2) = W6 m ρ c (Proc.devRef .tc main_arg2) :=
  W7_of_ne m ρ c main_arg2 (by decide)
theorem keep1_arg2 (c : Dev nD) : W7 m ρ c (Proc.devRef .tc main_arg2) = W4 m ρ c (Proc.devRef .tc main_arg2) :=
  (keepU1_arg2 m ρ c).trans ((keepH1_arg2 m ρ c).trans (keepM1_arg2 m ρ c))
theorem keepU1_arg4 (c : Dev nD) : W7 m ρ c (Proc.devRef .tc main_arg4) = W6 m ρ c (Proc.devRef .tc main_arg4) :=
  W7_of_ne m ρ c main_arg4 (by decide)
theorem keep1_arg4 (c : Dev nD) : W7 m ρ c (Proc.devRef .tc main_arg4) = W4 m ρ c (Proc.devRef .tc main_arg4) :=
  (keepU1_arg4 m ρ c).trans ((keepH1_arg4 m ρ c).trans (keepM1_arg4 m ρ c))
theorem keepU1_v10 (c : Dev nD) : W7 m ρ c (Proc.devRef .tc main_v10) = W6 m ρ c (Proc.devRef .tc main_v10) :=
  (W7_arr m ρ c 2).trans (((dat3 (V6 m ρ) c).arrAt_in 2 rfl _).trans (A_eq3 (V6 m ρ) c 2))
theorem keep1_v10 (c : Dev nD) : W7 m ρ c (Proc.devRef .tc main_v10) = W4 m ρ c (Proc.devRef .tc main_v10) :=
  (keepU1_v10 m ρ c).trans ((keepH1_v10 m ρ c).trans (keepM1_v10 m ρ c))
theorem keepU1_v11 (c : Dev nD) : W7 m ρ c (Proc.devRef .tc main_v11) = W6 m ρ c (Proc.devRef .tc main_v11) :=
  (W7_arr m ρ c 3).trans (((dat3 (V6 m ρ) c).arrAt_in 3 rfl _).trans (A_eq3 (V6 m ρ) c 3))
theorem keep1_v11 (c : Dev nD) : W7 m ρ c (Proc.devRef .tc main_v11) = W4 m ρ c (Proc.devRef .tc main_v11) :=
  (keepU1_v11 m ρ c).trans ((keepH1_v11 m ρ c).trans (keepM1_v11 m ρ c))
theorem keepU1_v13 (c : Dev nD) : W7 m ρ c (Proc.devRef .tc main_v13) = W6 m ρ c (Proc.devRef .tc main_v13) :=
  W7_of_ne m ρ c main_v13 (by decide)
theorem keep1_v13 (c : Dev nD) : W7 m ρ c (Proc.devRef .tc main_v13) = W4 m ρ c (Proc.devRef .tc main_v13) :=
  (keepU1_v13 m ρ c).trans ((keepH1_v13 m ρ c).trans (keepM1_v13 m ρ c))
theorem keepU1_v15 (c : Dev nD) : W7 m ρ c (Proc.devRef .tc main_v15) = W6 m ρ c (Proc.devRef .tc main_v15) :=
  W7_of_ne m ρ c main_v15 (by decide)
theorem keep1_v15 (c : Dev nD) : W7 m ρ c (Proc.devRef .tc main_v15) = W4 m ρ c (Proc.devRef .tc main_v15) :=
  (keepU1_v15 m ρ c).trans ((keepH1_v15 m ρ c).trans (keepM1_v15 m ρ c))

/-- Region 2 leaves x · lwᵀ of the round's state in the neighbour buffer. -/
theorem neigh1 (c : Dev nD) : W5 m ρ c (Proc.devRef .tc main_v31) = rowsDot (n := 100000) (W4 m ρ c (Proc.devRef .tc main_v30)) (W4 m ρ c (Proc.devRef .tc main_arg4)) :=
  (W5_arr m ρ c 2).trans (Cert.KernelIdeal.Reg2.result (V4 m ρ) c)

set_option maxHeartbeats 4000000 in
/-- The stretch of host operations leaves the aggregated messages of the neighbour buffer. -/
theorem agg1 (c : Dev nD) : W6 m ρ c (Proc.devRef .tc main_v44)
    = messages (W5 m ρ c (Proc.devRef .tc main_v31)) (W5 m ρ c (Proc.devRef .tc main_v13)) (W5 m ρ c (Proc.devRef .tc main_v15)) (W5 m ρ c (Proc.devRef .tc main_arg2)) := by
  show StableHlo.after hostOps3 (W5 m ρ c) (Proc.devRef .tc main_v44) = _
  unfold messages
  after_results_simp <;> rfl

/-- Round 1: the new state buffer holds one step of the round's state. -/
theorem round1 (c : Dev nD) : W7 m ρ c (Proc.devRef .tc main_v45)
    = step (W4 m ρ c (Proc.devRef .tc main_arg4)) (W4 m ρ c (Proc.devRef .tc main_v10)) (W4 m ρ c (Proc.devRef .tc main_v13)) (W4 m ρ c (Proc.devRef .tc main_v15)) (W4 m ρ c (Proc.devRef .tc main_arg2)) (W4 m ρ c (Proc.devRef .tc main_v11)) (W4 m ρ c (Proc.devRef .tc main_v30)) := by
  refine (W7_arr m ρ c 4).trans ?_
  refine (Cert.KernelIdeal.Reg3.result (V6 m ρ) c).trans ?_
  have hx : V6 m ρ c main_v30 = W4 m ρ c (Proc.devRef .tc main_v30) := (keepH1_v30 m ρ c).trans (keepM1_v30 m ρ c)
  have hg : V6 m ρ c main_v44 = messages (rowsDot (n := 100000) (W4 m ρ c (Proc.devRef .tc main_v30)) (W4 m ρ c (Proc.devRef .tc main_arg4))) (W4 m ρ c (Proc.devRef .tc main_v13)) (W4 m ρ c (Proc.devRef .tc main_v15)) (W4 m ρ c (Proc.devRef .tc main_arg2)) := by
    refine (agg1 m ρ c).trans ?_
    rw [neigh1 m ρ c, keepM1_v13 m ρ c, keepM1_v15 m ρ c, keepM1_arg2 m ρ c]
  have ha : V6 m ρ c main_v10 = W4 m ρ c (Proc.devRef .tc main_v10) := (keepH1_v10 m ρ c).trans (keepM1_v10 m ρ c)
  have hb : V6 m ρ c main_v11 = W4 m ρ c (Proc.devRef .tc main_v11) := (keepH1_v11 m ρ c).trans (keepM1_v11 m ρ c)
  rw [hx, hg, ha, hb]
  rfl

/-! ## Round 2: region 4 (x · lwᵀ), the messages, region 5 (the update) -/

theorem keepM2_v45 (c : Dev nD) : W8 m ρ c (Proc.devRef .tc main_v45) = W7 m ρ c (Proc.devRef .tc main_v45) :=
  (W8_arr m ρ c 0).trans (((dat4 (V7 m ρ) c).arrAt_in 0 rfl _).trans (A_eq4 (V7 m ρ) c 0))
theorem keepH2_v45 (c : Dev nD) : W9 m ρ c (Proc.devRef .tc main_v45) = W8 m ρ c (Proc.devRef .tc main_v45) := by
  host_untouched hostOps5
theorem keepM2_arg2 (c : Dev nD) : W8 m ρ c (Proc.devRef .tc main_arg2) = W7 m ρ c (Proc.devRef .tc main_arg2) :=
  W8_of_ne m ρ c main_arg2 (by decide)
theorem keepH2_arg2 (c : Dev nD) : W9 m ρ c (Proc.devRef .tc main_arg2) = W8 m ρ c (Proc.devRef .tc main_arg2) := by
  host_untouched hostOps5
theorem keepM2_arg4 (c : Dev nD) : W8 m ρ c (Proc.devRef .tc main_arg4) = W7 m ρ c (Proc.devRef .tc main_arg4) :=
  (W8_arr m ρ c 1).trans (((dat4 (V7 m ρ) c).arrAt_in 1 rfl _).trans (A_eq4 (V7 m ρ) c 1))
theorem keepH2_arg4 (c : Dev nD) : W9 m ρ c (Proc.devRef .tc main_arg4) = W8 m ρ c (Proc.devRef .tc main_arg4) := by
  host_untouched hostOps5
theorem keepM2_v10 (c : Dev nD) : W8 m ρ c (Proc.devRef .tc main_v10) = W7 m ρ c (Proc.devRef .tc main_v10) :=
  W8_of_ne m ρ c main_v10 (by decide)
theorem keepH2_v10 (c : Dev nD) : W9 m ρ c (Proc.devRef .tc main_v10) = W8 m ρ c (Proc.devRef .tc main_v10) := by
  host_untouched hostOps5
theorem keepM2_v11 (c : Dev nD) : W8 m ρ c (Proc.devRef .tc main_v11) = W7 m ρ c (Proc.devRef .tc main_v11) :=
  W8_of_ne m ρ c main_v11 (by decide)
theorem keepH2_v11 (c : Dev nD) : W9 m ρ c (Proc.devRef .tc main_v11) = W8 m ρ c (Proc.devRef .tc main_v11) := by
  host_untouched hostOps5
theorem keepM2_v13 (c : Dev nD) : W8 m ρ c (Proc.devRef .tc main_v13) = W7 m ρ c (Proc.devRef .tc main_v13) :=
  W8_of_ne m ρ c main_v13 (by decide)
theorem keepH2_v13 (c : Dev nD) : W9 m ρ c (Proc.devRef .tc main_v13) = W8 m ρ c (Proc.devRef .tc main_v13) := by
  host_untouched hostOps5
theorem keepM2_v15 (c : Dev nD) : W8 m ρ c (Proc.devRef .tc main_v15) = W7 m ρ c (Proc.devRef .tc main_v15) :=
  W8_of_ne m ρ c main_v15 (by decide)
theorem keepH2_v15 (c : Dev nD) : W9 m ρ c (Proc.devRef .tc main_v15) = W8 m ρ c (Proc.devRef .tc main_v15) := by
  host_untouched hostOps5
theorem keepU2_arg2 (c : Dev nD) : W10 m ρ c (Proc.devRef .tc main_arg2) = W9 m ρ c (Proc.devRef .tc main_arg2) :=
  W10_of_ne m ρ c main_arg2 (by decide)
theorem keep2_arg2 (c : Dev nD) : W10 m ρ c (Proc.devRef .tc main_arg2) = W7 m ρ c (Proc.devRef .tc main_arg2) :=
  (keepU2_arg2 m ρ c).trans ((keepH2_arg2 m ρ c).trans (keepM2_arg2 m ρ c))
theorem keepU2_arg4 (c : Dev nD) : W10 m ρ c (Proc.devRef .tc main_arg4) = W9 m ρ c (Proc.devRef .tc main_arg4) :=
  W10_of_ne m ρ c main_arg4 (by decide)
theorem keep2_arg4 (c : Dev nD) : W10 m ρ c (Proc.devRef .tc main_arg4) = W7 m ρ c (Proc.devRef .tc main_arg4) :=
  (keepU2_arg4 m ρ c).trans ((keepH2_arg4 m ρ c).trans (keepM2_arg4 m ρ c))
theorem keepU2_v10 (c : Dev nD) : W10 m ρ c (Proc.devRef .tc main_v10) = W9 m ρ c (Proc.devRef .tc main_v10) :=
  (W10_arr m ρ c 2).trans (((dat5 (V9 m ρ) c).arrAt_in 2 rfl _).trans (A_eq5 (V9 m ρ) c 2))
theorem keep2_v10 (c : Dev nD) : W10 m ρ c (Proc.devRef .tc main_v10) = W7 m ρ c (Proc.devRef .tc main_v10) :=
  (keepU2_v10 m ρ c).trans ((keepH2_v10 m ρ c).trans (keepM2_v10 m ρ c))
theorem keepU2_v11 (c : Dev nD) : W10 m ρ c (Proc.devRef .tc main_v11) = W9 m ρ c (Proc.devRef .tc main_v11) :=
  (W10_arr m ρ c 3).trans (((dat5 (V9 m ρ) c).arrAt_in 3 rfl _).trans (A_eq5 (V9 m ρ) c 3))
theorem keep2_v11 (c : Dev nD) : W10 m ρ c (Proc.devRef .tc main_v11) = W7 m ρ c (Proc.devRef .tc main_v11) :=
  (keepU2_v11 m ρ c).trans ((keepH2_v11 m ρ c).trans (keepM2_v11 m ρ c))
theorem keepU2_v13 (c : Dev nD) : W10 m ρ c (Proc.devRef .tc main_v13) = W9 m ρ c (Proc.devRef .tc main_v13) :=
  W10_of_ne m ρ c main_v13 (by decide)
theorem keep2_v13 (c : Dev nD) : W10 m ρ c (Proc.devRef .tc main_v13) = W7 m ρ c (Proc.devRef .tc main_v13) :=
  (keepU2_v13 m ρ c).trans ((keepH2_v13 m ρ c).trans (keepM2_v13 m ρ c))
theorem keepU2_v15 (c : Dev nD) : W10 m ρ c (Proc.devRef .tc main_v15) = W9 m ρ c (Proc.devRef .tc main_v15) :=
  W10_of_ne m ρ c main_v15 (by decide)
theorem keep2_v15 (c : Dev nD) : W10 m ρ c (Proc.devRef .tc main_v15) = W7 m ρ c (Proc.devRef .tc main_v15) :=
  (keepU2_v15 m ρ c).trans ((keepH2_v15 m ρ c).trans (keepM2_v15 m ρ c))

/-- Region 4 leaves x · lwᵀ of the round's state in the neighbour buffer. -/
theorem neigh2 (c : Dev nD) : W8 m ρ c (Proc.devRef .tc main_v46) = rowsDot (n := 100000) (W7 m ρ c (Proc.devRef .tc main_v45)) (W7 m ρ c (Proc.devRef .tc main_arg4)) :=
  (W8_arr m ρ c 2).trans (Cert.KernelIdeal.Reg4.result (V7 m ρ) c)

set_option maxHeartbeats 4000000 in
/-- The stretch of host operations leaves the aggregated messages of the neighbour buffer. -/
theorem agg2 (c : Dev nD) : W9 m ρ c (Proc.devRef .tc main_v59)
    = messages (W8 m ρ c (Proc.devRef .tc main_v46)) (W8 m ρ c (Proc.devRef .tc main_v13)) (W8 m ρ c (Proc.devRef .tc main_v15)) (W8 m ρ c (Proc.devRef .tc main_arg2)) := by
  show StableHlo.after hostOps5 (W8 m ρ c) (Proc.devRef .tc main_v59) = _
  unfold messages
  after_results_simp <;> rfl

/-- Round 2: the new state buffer holds one step of the round's state. -/
theorem round2 (c : Dev nD) : W10 m ρ c (Proc.devRef .tc main_v60)
    = step (W7 m ρ c (Proc.devRef .tc main_arg4)) (W7 m ρ c (Proc.devRef .tc main_v10)) (W7 m ρ c (Proc.devRef .tc main_v13)) (W7 m ρ c (Proc.devRef .tc main_v15)) (W7 m ρ c (Proc.devRef .tc main_arg2)) (W7 m ρ c (Proc.devRef .tc main_v11)) (W7 m ρ c (Proc.devRef .tc main_v45)) := by
  refine (W10_arr m ρ c 4).trans ?_
  refine (Cert.KernelIdeal.Reg5.result (V9 m ρ) c).trans ?_
  have hx : V9 m ρ c main_v45 = W7 m ρ c (Proc.devRef .tc main_v45) := (keepH2_v45 m ρ c).trans (keepM2_v45 m ρ c)
  have hg : V9 m ρ c main_v59 = messages (rowsDot (n := 100000) (W7 m ρ c (Proc.devRef .tc main_v45)) (W7 m ρ c (Proc.devRef .tc main_arg4))) (W7 m ρ c (Proc.devRef .tc main_v13)) (W7 m ρ c (Proc.devRef .tc main_v15)) (W7 m ρ c (Proc.devRef .tc main_arg2)) := by
    refine (agg2 m ρ c).trans ?_
    rw [neigh2 m ρ c, keepM2_v13 m ρ c, keepM2_v15 m ρ c, keepM2_arg2 m ρ c]
  have ha : V9 m ρ c main_v10 = W7 m ρ c (Proc.devRef .tc main_v10) := (keepH2_v10 m ρ c).trans (keepM2_v10 m ρ c)
  have hb : V9 m ρ c main_v11 = W7 m ρ c (Proc.devRef .tc main_v11) := (keepH2_v11 m ρ c).trans (keepM2_v11 m ρ c)
  rw [hx, hg, ha, hb]
  rfl

/-! ## Round 3: region 6 (x · lwᵀ), the messages, region 7 (the update) -/

theorem keepM3_v60 (c : Dev nD) : W11 m ρ c (Proc.devRef .tc main_v60) = W10 m ρ c (Proc.devRef .tc main_v60) :=
  (W11_arr m ρ c 0).trans (((dat6 (V10 m ρ) c).arrAt_in 0 rfl _).trans (A_eq6 (V10 m ρ) c 0))
theorem keepH3_v60 (c : Dev nD) : W12 m ρ c (Proc.devRef .tc main_v60) = W11 m ρ c (Proc.devRef .tc main_v60) := by
  host_untouched hostOps7
theorem keepM3_arg2 (c : Dev nD) : W11 m ρ c (Proc.devRef .tc main_arg2) = W10 m ρ c (Proc.devRef .tc main_arg2) :=
  W11_of_ne m ρ c main_arg2 (by decide)
theorem keepH3_arg2 (c : Dev nD) : W12 m ρ c (Proc.devRef .tc main_arg2) = W11 m ρ c (Proc.devRef .tc main_arg2) := by
  host_untouched hostOps7
theorem keepM3_arg4 (c : Dev nD) : W11 m ρ c (Proc.devRef .tc main_arg4) = W10 m ρ c (Proc.devRef .tc main_arg4) :=
  (W11_arr m ρ c 1).trans (((dat6 (V10 m ρ) c).arrAt_in 1 rfl _).trans (A_eq6 (V10 m ρ) c 1))
theorem keepH3_arg4 (c : Dev nD) : W12 m ρ c (Proc.devRef .tc main_arg4) = W11 m ρ c (Proc.devRef .tc main_arg4) := by
  host_untouched hostOps7
theorem keepM3_v10 (c : Dev nD) : W11 m ρ c (Proc.devRef .tc main_v10) = W10 m ρ c (Proc.devRef .tc main_v10) :=
  W11_of_ne m ρ c main_v10 (by decide)
theorem keepH3_v10 (c : Dev nD) : W12 m ρ c (Proc.devRef .tc main_v10) = W11 m ρ c (Proc.devRef .tc main_v10) := by
  host_untouched hostOps7
theorem keepM3_v11 (c : Dev nD) : W11 m ρ c (Proc.devRef .tc main_v11) = W10 m ρ c (Proc.devRef .tc main_v11) :=
  W11_of_ne m ρ c main_v11 (by decide)
theorem keepH3_v11 (c : Dev nD) : W12 m ρ c (Proc.devRef .tc main_v11) = W11 m ρ c (Proc.devRef .tc main_v11) := by
  host_untouched hostOps7
theorem keepM3_v13 (c : Dev nD) : W11 m ρ c (Proc.devRef .tc main_v13) = W10 m ρ c (Proc.devRef .tc main_v13) :=
  W11_of_ne m ρ c main_v13 (by decide)
theorem keepH3_v13 (c : Dev nD) : W12 m ρ c (Proc.devRef .tc main_v13) = W11 m ρ c (Proc.devRef .tc main_v13) := by
  host_untouched hostOps7
theorem keepM3_v15 (c : Dev nD) : W11 m ρ c (Proc.devRef .tc main_v15) = W10 m ρ c (Proc.devRef .tc main_v15) :=
  W11_of_ne m ρ c main_v15 (by decide)
theorem keepH3_v15 (c : Dev nD) : W12 m ρ c (Proc.devRef .tc main_v15) = W11 m ρ c (Proc.devRef .tc main_v15) := by
  host_untouched hostOps7
theorem keepU3_arg2 (c : Dev nD) : W13 m ρ c (Proc.devRef .tc main_arg2) = W12 m ρ c (Proc.devRef .tc main_arg2) :=
  W13_of_ne m ρ c main_arg2 (by decide)
theorem keep3_arg2 (c : Dev nD) : W13 m ρ c (Proc.devRef .tc main_arg2) = W10 m ρ c (Proc.devRef .tc main_arg2) :=
  (keepU3_arg2 m ρ c).trans ((keepH3_arg2 m ρ c).trans (keepM3_arg2 m ρ c))
theorem keepU3_arg4 (c : Dev nD) : W13 m ρ c (Proc.devRef .tc main_arg4) = W12 m ρ c (Proc.devRef .tc main_arg4) :=
  W13_of_ne m ρ c main_arg4 (by decide)
theorem keep3_arg4 (c : Dev nD) : W13 m ρ c (Proc.devRef .tc main_arg4) = W10 m ρ c (Proc.devRef .tc main_arg4) :=
  (keepU3_arg4 m ρ c).trans ((keepH3_arg4 m ρ c).trans (keepM3_arg4 m ρ c))
theorem keepU3_v10 (c : Dev nD) : W13 m ρ c (Proc.devRef .tc main_v10) = W12 m ρ c (Proc.devRef .tc main_v10) :=
  (W13_arr m ρ c 2).trans (((dat7 (V12 m ρ) c).arrAt_in 2 rfl _).trans (A_eq7 (V12 m ρ) c 2))
theorem keep3_v10 (c : Dev nD) : W13 m ρ c (Proc.devRef .tc main_v10) = W10 m ρ c (Proc.devRef .tc main_v10) :=
  (keepU3_v10 m ρ c).trans ((keepH3_v10 m ρ c).trans (keepM3_v10 m ρ c))
theorem keepU3_v11 (c : Dev nD) : W13 m ρ c (Proc.devRef .tc main_v11) = W12 m ρ c (Proc.devRef .tc main_v11) :=
  (W13_arr m ρ c 3).trans (((dat7 (V12 m ρ) c).arrAt_in 3 rfl _).trans (A_eq7 (V12 m ρ) c 3))
theorem keep3_v11 (c : Dev nD) : W13 m ρ c (Proc.devRef .tc main_v11) = W10 m ρ c (Proc.devRef .tc main_v11) :=
  (keepU3_v11 m ρ c).trans ((keepH3_v11 m ρ c).trans (keepM3_v11 m ρ c))
theorem keepU3_v13 (c : Dev nD) : W13 m ρ c (Proc.devRef .tc main_v13) = W12 m ρ c (Proc.devRef .tc main_v13) :=
  W13_of_ne m ρ c main_v13 (by decide)
theorem keep3_v13 (c : Dev nD) : W13 m ρ c (Proc.devRef .tc main_v13) = W10 m ρ c (Proc.devRef .tc main_v13) :=
  (keepU3_v13 m ρ c).trans ((keepH3_v13 m ρ c).trans (keepM3_v13 m ρ c))
theorem keepU3_v15 (c : Dev nD) : W13 m ρ c (Proc.devRef .tc main_v15) = W12 m ρ c (Proc.devRef .tc main_v15) :=
  W13_of_ne m ρ c main_v15 (by decide)
theorem keep3_v15 (c : Dev nD) : W13 m ρ c (Proc.devRef .tc main_v15) = W10 m ρ c (Proc.devRef .tc main_v15) :=
  (keepU3_v15 m ρ c).trans ((keepH3_v15 m ρ c).trans (keepM3_v15 m ρ c))

/-- Region 6 leaves x · lwᵀ of the round's state in the neighbour buffer. -/
theorem neigh3 (c : Dev nD) : W11 m ρ c (Proc.devRef .tc main_v61) = rowsDot (n := 100000) (W10 m ρ c (Proc.devRef .tc main_v60)) (W10 m ρ c (Proc.devRef .tc main_arg4)) :=
  (W11_arr m ρ c 2).trans (Cert.KernelIdeal.Reg6.result (V10 m ρ) c)

set_option maxHeartbeats 4000000 in
/-- The stretch of host operations leaves the aggregated messages of the neighbour buffer. -/
theorem agg3 (c : Dev nD) : W12 m ρ c (Proc.devRef .tc main_v74)
    = messages (W11 m ρ c (Proc.devRef .tc main_v61)) (W11 m ρ c (Proc.devRef .tc main_v13)) (W11 m ρ c (Proc.devRef .tc main_v15)) (W11 m ρ c (Proc.devRef .tc main_arg2)) := by
  show StableHlo.after hostOps7 (W11 m ρ c) (Proc.devRef .tc main_v74) = _
  unfold messages
  after_results_simp <;> rfl

/-- Round 3: the new state buffer holds one step of the round's state. -/
theorem round3 (c : Dev nD) : W13 m ρ c (Proc.devRef .tc main_v75)
    = step (W10 m ρ c (Proc.devRef .tc main_arg4)) (W10 m ρ c (Proc.devRef .tc main_v10)) (W10 m ρ c (Proc.devRef .tc main_v13)) (W10 m ρ c (Proc.devRef .tc main_v15)) (W10 m ρ c (Proc.devRef .tc main_arg2)) (W10 m ρ c (Proc.devRef .tc main_v11)) (W10 m ρ c (Proc.devRef .tc main_v60)) := by
  refine (W13_arr m ρ c 4).trans ?_
  refine (Cert.KernelIdeal.Reg7.result (V12 m ρ) c).trans ?_
  have hx : V12 m ρ c main_v60 = W10 m ρ c (Proc.devRef .tc main_v60) := (keepH3_v60 m ρ c).trans (keepM3_v60 m ρ c)
  have hg : V12 m ρ c main_v74 = messages (rowsDot (n := 100000) (W10 m ρ c (Proc.devRef .tc main_v60)) (W10 m ρ c (Proc.devRef .tc main_arg4))) (W10 m ρ c (Proc.devRef .tc main_v13)) (W10 m ρ c (Proc.devRef .tc main_v15)) (W10 m ρ c (Proc.devRef .tc main_arg2)) := by
    refine (agg3 m ρ c).trans ?_
    rw [neigh3 m ρ c, keepM3_v13 m ρ c, keepM3_v15 m ρ c, keepM3_arg2 m ρ c]
  have ha : V12 m ρ c main_v10 = W10 m ρ c (Proc.devRef .tc main_v10) := (keepH3_v10 m ρ c).trans (keepM3_v10 m ρ c)
  have hb : V12 m ρ c main_v11 = W10 m ρ c (Proc.devRef .tc main_v11) := (keepH3_v11 m ρ c).trans (keepM3_v11 m ρ c)
  rw [hx, hg, ha, hb]
  rfl

/-! ## The result buffer -/

/-- The last valuation at the result buffer: four steps from the launch contents of x, with the matrix, the edge rows
    and the bias row as the first stretch computes them. -/
theorem result (c : Dev nD) : W13 m ρ c (Proc.devRef .tc main_v75)
    = fourSteps (step (m ((c : Thread nD τ).loc main_arg4)) (antisym (m ((c : Thread nD τ).loc main_arg3)))
          (sources (m ((c : Thread nD τ).loc main_arg1))) (targets (m ((c : Thread nD τ).loc main_arg1)))
          (m ((c : Thread nD τ).loc main_arg2)) (shapeCast S1x64 (m ((c : Thread nD τ).loc main_arg5)) shapeCasts_S64_S1x64))
        (m ((c : Thread nD τ).loc main_arg0)) := by
  rw [round3 m ρ c, round2 m ρ c, round1 m ρ c, round0 m ρ c]
  simp only [keep2_arg2 m ρ c, keep2_arg4 m ρ c, keep2_v10 m ρ c, keep2_v11 m ρ c, keep2_v13 m ρ c, keep2_v15 m ρ c,
    keep1_arg2 m ρ c, keep1_arg4 m ρ c, keep1_v10 m ρ c, keep1_v11 m ρ c, keep1_v13 m ρ c, keep1_v15 m ρ c,
    keep0_arg2 m ρ c, keep0_arg4 m ρ c, keep0_v10 m ρ c, keep0_v11 m ρ c, keep0_v13 m ρ c, keep0_v15 m ρ c,
    first_x m ρ c, first_arg2 m ρ c, first_arg4 m ρ c, first_v10 m ρ c, first_v11 m ρ c, first_v13 m ρ c, first_v15 m ρ c]
  rfl

end Cert.KernelIdeal.Fold

end
-- ==== Proof.RefSide.lean ====
/-
  The reference program's result as four steps of the node update.

  The reference computes, four times over, x ← x + ε · tanh (x · aᵀ + g + b) with g the messages aggregated from
  x · lwᵀ along the edges; a = W − Wᵀ − ε·I, the edge rows and the bias row are computed once. Its run states the result
  as one composed term of the arguments; that term is the fourfold composition of one step (`hostStep`), and one step,
  read entry by entry, is `NodeStep.updRows` over `NodeStep.rowsDot`.
-/
import proofs.«108213_j26422638805509_1_alg».proof.Proof.Gen.ReferenceIdeal.Run
import proofs.«108213_j26422638805509_1_alg».proof.Proof.NodeStep

noncomputable section

namespace Cert.ReferenceIdeal.RefValue

open Cert.ReferenceIdeal Cert.ReferenceIdeal.Gen Cert.ReferenceIdeal.Value Idealize.ShloMosaic Idealize.ShloMosaic.TcCoe Idealize.SL.Sem
open Cert.NodeStep

/-- The messages aggregated at each node: every edge e carries weight(e) · neigh(src e) to node dst e, where a negative
    source index counts from the end; the contributions to a node are added up from 0. -/
def messages (neigh : FVec Ideal S100000x64 .f32) (src dst : IVec S1250000 32)
    (ew : FVec Ideal S1250000 .f32) : FVec Ideal S100000x64 .f32 :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (mulf (broadcastInDim S1250000x64 ![0, 1] bcast_S1250000x1_S1250000x64_0_1 (broadcastInDim S1250000x1 ![0] bcast_S1250000_S1250000x1_0 ew))
      (Host.gather gather_S100000x64_S1250000x1_S1250000x64_1_0_n_n_0_1_164 neigh
        (broadcastInDim S1250000x1 ![0] bcast_S1250000_S1250000x1_0
          (select (cmpi .slt src (broadcastInDim S1250000 ![] bcast_S_S1250000 (constantI S_ 32 0#32)))
            (addi src (broadcastInDim S1250000 ![] bcast_S_S1250000 (constantI S_ 32 100000#32))) src))))

/-- W − Wᵀ − ε·I: the 64×64 matrix of the update. -/
def antisym (w : FVec Ideal S64x64 .f32) : FVec Ideal S64x64 .f32 :=
  subf (subf w (transpose S64x64 [1, 0] w transposes_S64x64_S64x64_1_0))
    (mulf (broadcastInDim S64x64 ![] bcast_S_S64x64 (constant (F := Ideal) S_ .f32 0x3DCCCCCD#32))
      (uitofp .f32 (cmpi .eq (addi (iotaInDim S64x64 32 0) (broadcastInDim S64x64 ![] bcast_S_S64x64 (constantI S_ 32 0#32))) (iotaInDim S64x64 32 1))))

/-- Row r of the 2-row edge table, as a vector. -/
def sources (ei : IVec S2x1250000 32) : IVec S1250000 32 :=
  shapeCast S1250000 (extractStridedSlice S1x1250000 ![0, 0] ei slices_S2x1250000_S1x1250000_0_0) shapeCasts_S1x1250000_S1250000
def targets (ei : IVec S2x1250000 32) : IVec S1250000 32 :=
  shapeCast S1250000 (extractStridedSlice S1x1250000 ![1, 0] ei slices_S2x1250000_S1x1250000_1_0) shapeCasts_S1x1250000_S1250000

/-- One step, as the reference's operations. -/
def hostStep (lw a : FVec Ideal S64x64 .f32) (src dst : IVec S1250000 32)
    (ew : FVec Ideal S1250000 .f32) (b : FVec Ideal S64 .f32)
    (x : FVec Ideal S100000x64 .f32) : FVec Ideal S100000x64 .f32 :=
  addf x (mulf (broadcastInDim S100000x64 ![] bcast_S_S100000x64 (constant (F := Ideal) S_ .f32 0x3DCCCCCD#32))
    (Host.tanh (addf (addf (Host.dotGeneral dot_S100000x64_S64x64_S100000x64_1_0_0_1_n_n none x (transpose S64x64 [1, 0] a transposes_S64x64_S64x64_1_0))
        (messages (Host.dotGeneral dot_S100000x64_S64x64_S100000x64_1_0_0_1_n_n none x (transpose S64x64 [1, 0] lw transposes_S64x64_S64x64_1_0)) src dst ew))
      (broadcastInDim S100000x64 ![0, 1] bcast_S1x64_S100000x64_0_1 (broadcastInDim S1x64 ![1] bcast_S64_S1x64_1 b)))))

set_option maxRecDepth 16384 in
set_option maxHeartbeats 4000000 in
/-- The run's composed term is four steps from the launch contents of x. -/
theorem res_eq (m : (ℓ : Loc nD τ sig) → Buf (Elt Ideal) ℓ) (c : Dev nD) :
    res_out0 (F := Ideal) m c
      = fourSteps (hostStep (m ((c.tc : Thread nD τ).loc main_arg4)) (antisym (m ((c.tc : Thread nD τ).loc main_arg3)))
            (sources (m ((c.tc : Thread nD τ).loc main_arg1))) (targets (m ((c.tc : Thread nD τ).loc main_arg1)))
            (m ((c.tc : Thread nD τ).loc main_arg2)) (m ((c.tc : Thread nD τ).loc main_arg5)))
          (m ((c.tc : Thread nD τ).loc main_arg0)) := by
  show res_main_v114 (F := Ideal) m c = _
  unfold res_main_v114 fourSteps hostStep messages antisym sources targets
  rfl

/-- The records of the whole-array product are those of a plain 100000×64 by 64×64 product. -/
theorem dims_plain : dot_S100000x64_S64x64_S100000x64_1_0_0_1_n_n = DotDims.plain 100000 64 64 := rfl

/-- One step read entry by entry. -/
theorem hostStep_eq (lw a : FVec Ideal S64x64 .f32) (src dst : IVec S1250000 32)
    (ew : FVec Ideal S1250000 .f32) (b : FVec Ideal S64 .f32)
    (x : FVec Ideal S100000x64 .f32) :
    hostStep lw a src dst ew b x
      = updRows (n := 100000) x (messages (rowsDot (n := 100000) x lw) src dst ew) a (broadcastInDim S1x64 ![1] bcast_S64_S1x64_1 b) := by
  unfold hostStep
  rw [dims_plain]
  refine (host_update (n := 100000) x _ a _ _ _ _).trans ?_
  rw [dotGeneral_rows_eq]

end Cert.ReferenceIdeal.RefValue

end
-- ==== Proof.LibLayout.lean ====
/-
  Two small facts about arrays.
  * A vector of length a made a one-row matrix [1, a]: by a shape cast, or by broadcasting it along the last axis — the
    same array, entry (0, i) being entry i of the vector.
  * On the extended reals x + 0 = x for every x, the infinities included; so adding an array that is 0 everywhere
    changes nothing.
-/
import Idealize.ShloMosaic.Lib.Pipeline.Value
import Idealize.ShloMosaic.Lib.ValueLayout
import Idealize.ShloMosaic.PureOps.Ideal.Laws

noncomputable section

namespace Cert.LibLayout

open Idealize.ShloMosaic Idealize.ShloMosaic.ValueIdx

/-- The one-row matrix of a vector, by a cast or by a broadcast. -/
theorem shapeCast_eq_broadcastInDim_row {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply (![1] : Fin 1 → Fin 2) h' x (ix2 u i) (ix1 i) fun ax => ?_).symm
  match ax with
  | ⟨0, _⟩ =>
    show i.val = if a = 1 then 0 else i.val
    split
    · have := i.isLt; omega
    · rfl

/-- An array that is 0 everywhere. -/
def IsZero {s : Shape} (z : FVec Ideal s .f32) : Prop := ∀ j, z j = 0

/-- Adding an everywhere-zero array. -/
theorem addf_zero {s : Shape} (y z : FVec Ideal s .f32) (hz : IsZero z) : addf y z = y :=
  funext fun j => by rw [addf_apply, hz j, add_zero]

end Cert.LibLayout

end
-- ==== Proof.Bridge.lean ====
/-
  The two programs compute the same array.

  Both results are four steps of the node update from the same x, with the same matrices, edge rows and edge weights
  (the host operations that make them are the same on both sides, and the arguments agree). One step is the same function
  on both sides: entry by entry x(r, j) + ε · tanh ((x · aᵀ)(r, j) + g(r, j) + b(j)) with g the messages aggregated from
  x · lwᵀ. The one difference left is how the bias vector becomes a one-row matrix — the kernel's program reshapes it, the
  reference broadcasts it along the last axis — and these are the same one-row matrix.
-/
import proofs.«108213_j26422638805509_1_alg».proof.Proof.Fold
import proofs.«108213_j26422638805509_1_alg».proof.Proof.RefSide
import proofs.«108213_j26422638805509_1_alg».proof.Proof.LibLayout

set_option maxRecDepth 16384

noncomputable section

namespace Cert.Proof.Bridge

open Idealize.ShloMosaic Idealize.ShloMosaic.TcCoe Idealize.SL.Sem
open Cert

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The array both programs end with, on core c, as a function of the kernel program's launch memory. -/
def value (c : Dev Cert.KernelIdeal.nD) : Buf (Elt Ideal) ((c.tc : Thread Cert.KernelIdeal.nD Cert.KernelIdeal.τ).loc Cert.KernelIdeal.main_v75) :=
  NodeStep.fourSteps (Cert.KernelIdeal.Fold.step (m ((c.tc : Thread Cert.KernelIdeal.nD Cert.KernelIdeal.τ).loc Cert.KernelIdeal.main_arg4)) (Cert.KernelIdeal.Fold.antisym (m ((c.tc : Thread Cert.KernelIdeal.nD Cert.KernelIdeal.τ).loc Cert.KernelIdeal.main_arg3)))
        (Cert.KernelIdeal.Fold.sources (m ((c.tc : Thread Cert.KernelIdeal.nD Cert.KernelIdeal.τ).loc Cert.KernelIdeal.main_arg1))) (Cert.KernelIdeal.Fold.targets (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)) (shapeCast Cert.KernelIdeal.S1x64 (m ((c.tc : Thread Cert.KernelIdeal.nD Cert.KernelIdeal.τ).loc Cert.KernelIdeal.main_arg5)) Cert.KernelIdeal.Facts₀.shapeCasts_S64_S1x64))
      (m ((c.tc : Thread Cert.KernelIdeal.nD Cert.KernelIdeal.τ).loc Cert.KernelIdeal.main_arg0))

/-- One step of the reference, entry by entry, is one step of the kernel program. -/
theorem step_agree (lw a : FVec Ideal Cert.ReferenceIdeal.S64x64 .f32) (src dst : IVec Cert.ReferenceIdeal.S1250000 32)
    (ew : FVec Ideal Cert.ReferenceIdeal.S1250000 .f32) (b : FVec Ideal Cert.ReferenceIdeal.S64 .f32) :
    Cert.ReferenceIdeal.RefValue.hostStep lw a src dst ew b
      = Cert.KernelIdeal.Fold.step lw a src dst ew (shapeCast Cert.KernelIdeal.S1x64 b Cert.KernelIdeal.Facts₀.shapeCasts_S64_S1x64) := by
  funext x
  rw [Cert.ReferenceIdeal.RefValue.hostStep_eq]
  unfold Cert.KernelIdeal.Fold.step
  rw [Cert.LibLayout.shapeCast_eq_broadcastInDim_row (a := 64) b Cert.KernelIdeal.Facts₀.shapeCasts_S64_S1x64 Cert.ReferenceIdeal.Facts₀.bcast_S64_S1x64_1]
  rfl

/-- The reference's result term, from a memory agreeing with the kernel program's on the arguments, is `value`. -/
theorem reference_value (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_out0 (F := Ideal) m' c = value m c := by
  rw [Cert.ReferenceIdeal.RefValue.res_eq, h0, h1, h2, h3, h4, h5, step_agree]
  rfl

end Cert.Proof.Bridge

end
-- ==== Proof.lean ====
/-
  The certificate of the four-round node update: a Pallas kernel program (two row-blocked regions per round, with the
  edge gather and scatter-add left to host operations between them) against its plain reference.

  * The three frames: the two kernel programs' are generated (the frame certificate over the 13 segments); the
    reference's is its generated run with the result dropped.
  * The idealization rewrote no operation, so there is nothing to preserve.
  * The value: both programs end with four steps of x ← x + ε · tanh (x · aᵀ + g(x) + b) from the launch x
    (`Bridge.value`). The kernel program's side follows the buffers through the segments (`Fold.result`, over the
    regions' `RegK.result`: the 20 row blocks of a region's output are the blocks of one whole-array function, because
    a row of x · wᵀ and of the update reads that row of x only). The reference's side is its run's composed term
    (`RefValue.res_eq`), equal to the same function entry by entry (`Bridge.reference_value`). No law of the extended
    reals is needed beyond reading both matrix products as the same finite sum, so the precondition is not used.
-/
import proofs.«108213_j26422638805509_1_alg».proof.Defs
import proofs.«108213_j26422638805509_1_alg».proof.Proof.Gen.Kernel
import proofs.«108213_j26422638805509_1_alg».proof.Proof.Gen.Kernel.Skeleton
import proofs.«108213_j26422638805509_1_alg».proof.Proof.Gen.Kernel.Launch
import proofs.«108213_j26422638805509_1_alg».proof.Proof.Gen.Kernel.Points
import proofs.«108213_j26422638805509_1_alg».proof.Proof.Gen.Kernel.Frame
import proofs.«108213_j26422638805509_1_alg».proof.Proof.Gen.KernelIdeal
import proofs.«108213_j26422638805509_1_alg».proof.Proof.Gen.KernelIdeal.Skeleton
import proofs.«108213_j26422638805509_1_alg».proof.Proof.Gen.KernelIdeal.Launch
import proofs.«108213_j26422638805509_1_alg».proof.Proof.Gen.KernelIdeal.Points
import proofs.«108213_j26422638805509_1_alg».proof.Proof.Gen.KernelIdeal.Frame
import proofs.«108213_j26422638805509_1_alg».proof.Proof.Gen.ReferenceIdeal
import proofs.«108213_j26422638805509_1_alg».proof.Proof.Gen.Pre_finite_inputs
import proofs.«108213_j26422638805509_1_alg».proof.Proof.Gen.ReferenceIdeal.Run
import proofs.«108213_j26422638805509_1_alg».proof.Proof.RunValue
import proofs.«108213_j26422638805509_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run and end with `Bridge.value` of the kernel program's launch memory. -/
theorem algebraic : Cert.algebraic_KernelIdeal_ReferenceIdeal := by
  intro m ρ m' ρ' _ hagree
  refine ⟨Bridge.value m, ?_, ?_⟩
  · exact (θ_run Cert.KernelIdeal.defs _ _).mono
      (fun _ h c => ⟨(h c).1.trans (Cert.KernelIdeal.Fold.result m ρ c), (h c).2⟩)
      (Cert.KernelIdeal.RunValue.run (F := Ideal) m ρ)
  · exact (θ_run Cert.ReferenceIdeal.defs _ _).mono
      (fun _ h c => ⟨(h c).1.trans (Bridge.reference_value m m' c (hagree c).1 (hagree c).2.1 (hagree c).2.2.1
          (hagree c).2.2.2.1 (hagree c).2.2.2.2.1 (hagree c).2.2.2.2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
